-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x80x4 : Shape := ⟨3, ![16384, 80, 4]⟩
abbrev S16384x10x8 : Shape := ⟨3, ![16384, 10, 8]⟩
abbrev S_ : Shape := ⟨0, ![]⟩

class Facts : Prop where
  bcast_S_S16384x80x4 : S_.BroadcastsInDim S16384x80x4 (![] : Fin 0 → Fin S16384x80x4.rank)
  reducesTo_S16384x80x4_S_d0_1_2 : S16384x80x4.ReducesTo [0, 1, 2] S_
  h_S_ : 0 < S_.numel

variable [Facts]

def fn {F : FTy → Type} [FloatOps F] (main_arg0 : FVec F S16384x80x4 .f32) (main_arg1 : IVec S16384x10x8 32) : IVec S_ 1 :=
  let main_v0 : FVec F S16384x80x4 .f32 := Host.absf main_arg0
  let main_cst : FVec F S_ .f32 := constant S_ .f32 0x7F800000#32
  let main_v1 : FVec F S16384x80x4 .f32 := broadcastInDim S16384x80x4 ![] bcast_S_S16384x80x4 main_cst
  let main_v2 : IVec S16384x80x4 1 := cmpf .olt main_v0 main_v1
  let main_c : IVec S_ 1 := constantI S_ 1 1#1
  let main_v3 : IVec S_ 1 := (fun x v => Host.reduce IntOp.andi x v reducesTo_S16384x80x4_S_d0_1_2 h_S_) main_v2 main_c
  main_v3
-- ==== Kernel.lean ====
abbrev S16384x80x4 : Shape := ⟨3, ![16384, 80, 4]⟩
abbrev S16384x10x8 : Shape := ⟨3, ![16384, 10, 8]⟩
abbrev S16384x320 : Shape := ⟨2, ![16384, 320]⟩
abbrev S16384x80 : Shape := ⟨2, ![16384, 80]⟩
abbrev S1024x320 : Shape := ⟨2, ![1024, 320]⟩
abbrev S1024x80 : Shape := ⟨2, ![1024, 80]⟩
abbrev S1024x1 : Shape := ⟨2, ![1024, 1]⟩
abbrev S1024 : Shape := ⟨1, ![1024]⟩
abbrev S16384x80x4x1 : Shape := ⟨4, ![16384, 80, 4, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x80x4, .f32⟩
  | .hbm, ⟨1, _⟩ => ⟨S16384x10x8, .i32⟩
  | .hbm, ⟨2, _⟩ => ⟨S16384x320, .f32⟩
  | .hbm, ⟨3, _⟩ => ⟨S16384x80, .i32⟩
  | .hbm, ⟨4, _⟩ => ⟨S16384x320, .f32⟩
  | .hbm, ⟨5, _⟩ => ⟨S16384x80x4x1, .f32⟩
  | .local _ .vmem, ⟨0, _⟩ => ⟨S1024x320, .f32⟩
  | .local _ .vmem, ⟨1, _⟩ => ⟨S1024x320, .f32⟩
  | .local _ .vmem, ⟨2, _⟩ => ⟨S1024x80, .i32⟩
  | .local _ .vmem, ⟨3, _⟩ => ⟨S1024x80, .i32⟩
  | .local _ .vmem, ⟨4, _⟩ => ⟨S1024x320, .f32⟩
  | .local _ .vmem, ⟨5, _⟩ => ⟨S1024x320, .f32⟩
  | _, _ => ⟨S16384x80x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x80 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x80x4_S16384x320 : S16384x80x4.ShapeCasts S16384x320
  shapeCasts_S16384x10x8_S16384x80 : S16384x10x8.ShapeCasts S16384x80
  inb_S1024x320_S1024x320_0_0 : ∀ a, (![0, 0] : Fin 2 → Nat) a + S1024x320.size a ≤ S1024x320.size a
  h_S1024x320 : 0 < S1024x320.numel
  shapeCasts_S1024x320_S1024x320 : S1024x320.ShapeCasts S1024x320
  inb_S1024x80_S1024x80_0_0 : ∀ a, (![0, 0] : Fin 2 → Nat) a + S1024x80.size a ≤ S1024x80.size a
  h_S1024x80 : 0 < S1024x80.numel
  shapeCasts_S1024x80_S1024x80 : S1024x80.ShapeCasts S1024x80
  iota_S1024x320_d1_w32 : S1024x320.Iotas .tc 32 [1]
  natLt_1_32 : 1 < 32
  slices_S1024x80_o0_0_S1024x1 : S1024x80.Slices ![0, 0] S1024x1
  shapeCasts_S1024x1_S1024 : S1024x1.ShapeCasts S1024
  shapeCasts_S1024_S1024x1 : S1024.ShapeCasts S1024x1
  broadcasts_S1024x1_S1024x320 : S1024x1.Broadcasts S1024x320
  slices_S1024x80_o0_1_S1024x1 : S1024x80.Slices ![0, 1] S1024x1
  slices_S1024x80_o0_2_S1024x1 : S1024x80.Slices ![0, 2] S1024x1
  slices_S1024x80_o0_3_S1024x1 : S1024x80.Slices ![0, 3] S1024x1
  slices_S1024x80_o0_4_S1024x1 : S1024x80.Slices ![0, 4] S1024x1
  slices_S1024x80_o0_5_S1024x1 : S1024x80.Slices ![0, 5] S1024x1
  slices_S1024x80_o0_6_S1024x1 : S1024x80.Slices ![0, 6] S1024x1
  slices_S1024x80_o0_7_S1024x1 : S1024x80.Slices ![0, 7] S1024x1
  slices_S1024x80_o0_8_S1024x1 : S1024x80.Slices ![0, 8] S1024x1
  slices_S1024x80_o0_9_S1024x1 : S1024x80.Slices ![0, 9] S1024x1
  slices_S1024x80_o0_10_S1024x1 : S1024x80.Slices ![0, 10] S1024x1
  slices_S1024x80_o0_11_S1024x1 : S1024x80.Slices ![0, 11] S1024x1
  slices_S1024x80_o0_12_S1024x1 : S1024x80.Slices ![0, 12] S1024x1
  slices_S1024x80_o0_13_S1024x1 : S1024x80.Slices ![0, 13] S1024x1
  slices_S1024x80_o0_14_S1024x1 : S1024x80.Slices ![0, 14] S1024x1
  slices_S1024x80_o0_15_S1024x1 : S1024x80.Slices ![0, 15] S1024x1
  slices_S1024x80_o0_16_S1024x1 : S1024x80.Slices ![0, 16] S1024x1
  slices_S1024x80_o0_17_S1024x1 : S1024x80.Slices ![0, 17] S1024x1
  slices_S1024x80_o0_18_S1024x1 : S1024x80.Slices ![0, 18] S1024x1
  slices_S1024x80_o0_19_S1024x1 : S1024x80.Slices ![0, 19] S1024x1
  slices_S1024x80_o0_20_S1024x1 : S1024x80.Slices ![0, 20] S1024x1
  slices_S1024x80_o0_21_S1024x1 : S1024x80.Slices ![0, 21] S1024x1
  slices_S1024x80_o0_22_S1024x1 : S1024x80.Slices ![0, 22] S1024x1
  slices_S1024x80_o0_23_S1024x1 : S1024x80.Slices ![0, 23] S1024x1
  slices_S1024x80_o0_24_S1024x1 : S1024x80.Slices ![0, 24] S1024x1
  slices_S1024x80_o0_25_S1024x1 : S1024x80.Slices ![0, 25] S1024x1
  slices_S1024x80_o0_26_S1024x1 : S1024x80.Slices ![0, 26] S1024x1
  slices_S1024x80_o0_27_S1024x1 : S1024x80.Slices ![0, 27] S1024x1
  slices_S1024x80_o0_28_S1024x1 : S1024x80.Slices ![0, 28] S1024x1
  slices_S1024x80_o0_29_S1024x1 : S1024x80.Slices ![0, 29] S1024x1
  slices_S1024x80_o0_30_S1024x1 : S1024x80.Slices ![0, 30] S1024x1
  slices_S1024x80_o0_31_S1024x1 : S1024x80.Slices ![0, 31] S1024x1
  slices_S1024x80_o0_32_S1024x1 : S1024x80.Slices ![0, 32] S1024x1
  slices_S1024x80_o0_33_S1024x1 : S1024x80.Slices ![0, 33] S1024x1
  slices_S1024x80_o0_34_S1024x1 : S1024x80.Slices ![0, 34] S1024x1
  slices_S1024x80_o0_35_S1024x1 : S1024x80.Slices ![0, 35] S1024x1
  slices_S1024x80_o0_36_S1024x1 : S1024x80.Slices ![0, 36] S1024x1
  slices_S1024x80_o0_37_S1024x1 : S1024x80.Slices ![0, 37] S1024x1
  slices_S1024x80_o0_38_S1024x1 : S1024x80.Slices ![0, 38] S1024x1
  slices_S1024x80_o0_39_S1024x1 : S1024x80.Slices ![0, 39] S1024x1
  slices_S1024x80_o0_40_S1024x1 : S1024x80.Slices ![0, 40] S1024x1
  slices_S1024x80_o0_41_S1024x1 : S1024x80.Slices ![0, 41] S1024x1
  slices_S1024x80_o0_42_S1024x1 : S1024x80.Slices ![0, 42] S1024x1
  slices_S1024x80_o0_43_S1024x1 : S1024x80.Slices ![0, 43] S1024x1
  slices_S1024x80_o0_44_S1024x1 : S1024x80.Slices ![0, 44] S1024x1
  slices_S1024x80_o0_45_S1024x1 : S1024x80.Slices ![0, 45] S1024x1
  slices_S1024x80_o0_46_S1024x1 : S1024x80.Slices ![0, 46] S1024x1
  slices_S1024x80_o0_47_S1024x1 : S1024x80.Slices ![0, 47] S1024x1
  slices_S1024x80_o0_48_S1024x1 : S1024x80.Slices ![0, 48] S1024x1
  slices_S1024x80_o0_49_S1024x1 : S1024x80.Slices ![0, 49] S1024x1
  slices_S1024x80_o0_50_S1024x1 : S1024x80.Slices ![0, 50] S1024x1
  slices_S1024x80_o0_51_S1024x1 : S1024x80.Slices ![0, 51] S1024x1
  slices_S1024x80_o0_52_S1024x1 : S1024x80.Slices ![0, 52] S1024x1
  slices_S1024x80_o0_53_S1024x1 : S1024x80.Slices ![0, 53] S1024x1
  slices_S1024x80_o0_54_S1024x1 : S1024x80.Slices ![0, 54] S1024x1
  slices_S1024x80_o0_55_S1024x1 : S1024x80.Slices ![0, 55] S1024x1
  slices_S1024x80_o0_56_S1024x1 : S1024x80.Slices ![0, 56] S1024x1
  slices_S1024x80_o0_57_S1024x1 : S1024x80.Slices ![0, 57] S1024x1
  slices_S1024x80_o0_58_S1024x1 : S1024x80.Slices ![0, 58] S1024x1
  slices_S1024x80_o0_59_S1024x1 : S1024x80.Slices ![0, 59] S1024x1
  slices_S1024x80_o0_60_S1024x1 : S1024x80.Slices ![0, 60] S1024x1
  slices_S1024x80_o0_61_S1024x1 : S1024x80.Slices ![0, 61] S1024x1
  slices_S1024x80_o0_62_S1024x1 : S1024x80.Slices ![0, 62] S1024x1
  slices_S1024x80_o0_63_S1024x1 : S1024x80.Slices ![0, 63] S1024x1
  slices_S1024x80_o0_64_S1024x1 : S1024x80.Slices ![0, 64] S1024x1
  slices_S1024x80_o0_65_S1024x1 : S1024x80.Slices ![0, 65] S1024x1
  slices_S1024x80_o0_66_S1024x1 : S1024x80.Slices ![0, 66] S1024x1
  slices_S1024x80_o0_67_S1024x1 : S1024x80.Slices ![0, 67] S1024x1
  slices_S1024x80_o0_68_S1024x1 : S1024x80.Slices ![0, 68] S1024x1
  slices_S1024x80_o0_69_S1024x1 : S1024x80.Slices ![0, 69] S1024x1
  slices_S1024x80_o0_70_S1024x1 : S1024x80.Slices ![0, 70] S1024x1
  slices_S1024x80_o0_71_S1024x1 : S1024x80.Slices ![0, 71] S1024x1
  slices_S1024x80_o0_72_S1024x1 : S1024x80.Slices ![0, 72] S1024x1
  slices_S1024x80_o0_73_S1024x1 : S1024x80.Slices ![0, 73] S1024x1
  slices_S1024x80_o0_74_S1024x1 : S1024x80.Slices ![0, 74] S1024x1
  slices_S1024x80_o0_75_S1024x1 : S1024x80.Slices ![0, 75] S1024x1
  slices_S1024x80_o0_76_S1024x1 : S1024x80.Slices ![0, 76] S1024x1
  slices_S1024x80_o0_77_S1024x1 : S1024x80.Slices ![0, 77] S1024x1
  slices_S1024x80_o0_78_S1024x1 : S1024x80.Slices ![0, 78] S1024x1
  slices_S1024x80_o0_79_S1024x1 : S1024x80.Slices ![0, 79] S1024x1
  shapeCasts_S16384x320_S16384x80x4x1 : S16384x320.ShapeCasts S16384x80x4x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x320.size a ≤ S16384x320.size a
  hwx0_0 : ∀ i : grid0.Coords, EltTy.bits .f32 = 32 ∨ (Rect.block (s := S16384x320) S1024x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x80.size a ≤ S16384x80.size a
  hwx0_1 : ∀ i : grid0.Coords, EltTy.bits .i32 = 32 ∨ (Rect.block (s := S16384x80) S1024x80.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x320.size a ≤ S16384x320.size a
  hwx0_2 : ∀ i : grid0.Coords, EltTy.bits .f32 = 32 ∨ (Rect.block (s := S16384x320) S1024x320.size (cc0_transform_2 i) (hinb0_2 i)).WholeWords (EltTy.packing .f32)

variable [Facts₀]

abbrev win0_0 : Pipeline.Window sig grid0 :=
  Pipeline.Window.ofSpec (Memref.whole main_v0) S1024x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x80x4 : Shape := ⟨3, ![16384, 80, 4]⟩
abbrev S16384x10x8 : Shape := ⟨3, ![16384, 10, 8]⟩
abbrev S16384x10x8x1 : Shape := ⟨4, ![16384, 10, 8, 1]⟩
abbrev S80 : Shape := ⟨1, ![80]⟩
abbrev S1x1x1x80 : Shape := ⟨4, ![1, 1, 1, 80]⟩
abbrev S16384x10x8x80 : Shape := ⟨4, ![16384, 10, 8, 80]⟩
abbrev S_ : Shape := ⟨0, ![]⟩
abbrev S16384x10x80 : Shape := ⟨3, ![16384, 10, 80]⟩
abbrev S16384x1x320 : Shape := ⟨3, ![16384, 1, 320]⟩
abbrev S16384x10x320 : Shape := ⟨3, ![16384, 10, 320]⟩
abbrev S16384x10x320x1 : Shape := ⟨4, ![16384, 10, 320, 1]⟩
abbrev S1 : Shape := ⟨1, ![1]⟩
abbrev S1x1x1x1 : Shape := ⟨4, ![1, 1, 1, 1]⟩
abbrev S16384x10x80x4 : Shape := ⟨4, ![16384, 10, 80, 4]⟩
abbrev S16384x10x80x1 : Shape := ⟨4, ![16384, 10, 80, 1]⟩
abbrev S16384x80x4x1 : Shape := ⟨4, ![16384, 80, 4, 1]⟩

abbrev nBuf : Space → Nat
  | .hbm => 55
  | .vmem => 0
  | .smem => 0
  | _ => 0

abbrev bufTy : (tb : Table) → Fin (tcTables nBuf tb) → BufTy
  | .hbm, ⟨0, _⟩ => ⟨S16384x80x4, .f32⟩
  | .hbm, ⟨1, _⟩ => ⟨S16384x10x8, .i32⟩
  | .hbm, ⟨2, _⟩ => ⟨S16384x80x4, .i32⟩
  | .hbm, ⟨3, _⟩ => ⟨S16384x10x8x1, .i32⟩
  | .hbm, ⟨4, _⟩ => ⟨S80, .i32⟩
  | .hbm, ⟨5, _⟩ => ⟨S1x1x1x80, .i32⟩
  | .hbm, ⟨6, _⟩ => ⟨S16384x10x8x80, .i32⟩
  | .hbm, ⟨7, _⟩ => ⟨S16384x10x8x80, .i32⟩
  | .hbm, ⟨8, _⟩ => ⟨S16384x10x8x80, .i1⟩
  | .hbm, ⟨9, _⟩ => ⟨S_, .i1⟩
  | .hbm, ⟨10, _⟩ => ⟨S16384x10x80, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16384x80x4, .i32⟩
  | .hbm, ⟨15, _⟩ => ⟨S16384x80x4, .i32⟩
  | .hbm, ⟨16, _⟩ => ⟨S_, .i32⟩
  | .hbm, ⟨17, _⟩ => ⟨S16384x80x4, .i32⟩
  | .hbm, ⟨18, _⟩ => ⟨S16384x80x4, .i32⟩
  | .hbm, ⟨19, _⟩ => ⟨S16384x1x320, .i32⟩
  | .hbm, ⟨20, _⟩ => ⟨S16384x10x320, .i32⟩
  | .hbm, ⟨21, _⟩ => ⟨S_, .i32⟩
  | .hbm, ⟨22, _⟩ => ⟨S16384x10x320, .i32⟩
  | .hbm, ⟨23, _⟩ => ⟨S16384x10x320, .i1⟩
  | .hbm, ⟨24, _⟩ => ⟨S_, .i32⟩
  | .hbm, ⟨25, _⟩ => ⟨S16384x10x320, .i32⟩
  | .hbm, ⟨26, _⟩ => ⟨S16384x10x320, .i32⟩
  | .hbm, ⟨27, _⟩ => ⟨S16384x10x320, .i32⟩
  | .hbm, ⟨28, _⟩ => ⟨S16384x10x320x1, .i32⟩
  | .hbm, ⟨29, _⟩ => ⟨S1, .i32⟩
  | .hbm, ⟨30, _⟩ => ⟨S_, .i32⟩
  | .hbm, ⟨31, _⟩ => ⟨S16384x10x320x1, .i32⟩
  | .hbm, ⟨32, _⟩ => ⟨S16384x10x320x1, .i1⟩
  | .hbm, ⟨33, _⟩ => ⟨S1x1x1x1, .i32⟩
  | .hbm, ⟨34, _⟩ => ⟨S16384x10x320x1, .i32⟩
  | .hbm, ⟨35, _⟩ => ⟨S16384x10x320x1, .i1⟩
  | .hbm, ⟨36, _⟩ => ⟨S16384x10x320x1, .i1⟩
  | .hbm, ⟨37, _⟩ => ⟨S_, .i1⟩
  | .hbm, ⟨38, _⟩ => ⟨S16384x10x320, .i1⟩
  | .hbm, ⟨39, _⟩ => ⟨S16384x10x320, .i1⟩
  | .hbm, ⟨40, _⟩ => ⟨S_, .i1⟩
  | .hbm, ⟨41, _⟩ => ⟨S16384x10x320, .i1⟩
  | .hbm, ⟨42, _⟩ => ⟨S16384x10x320, .i1⟩
  | .hbm, ⟨43, _⟩ => ⟨S16384x10x80x4, .i1⟩
  | .hbm, ⟨44, _⟩ => ⟨S16384x10x80x1, .i1⟩
  | .hbm, ⟨45, _⟩ => ⟨S16384x10x80x4, .i1⟩
  | .hbm, ⟨46, _⟩ => ⟨S16384x10x80x4, .i1⟩
  | .hbm, ⟨47, _⟩ => ⟨S_, .i1⟩
  | .hbm, ⟨48, _⟩ => ⟨S16384x80x4, .i1⟩
  | .hbm, ⟨49, _⟩ => ⟨S_, .i32⟩
  | .hbm, ⟨50, _⟩ => ⟨S16384x80x4, .i32⟩
  | .hbm, ⟨51, _⟩ => ⟨S16384x80x4, .i1⟩
  | .hbm, ⟨52, _⟩ => ⟨S16384x80x4, .i1⟩
  | .hbm, ⟨53, _⟩ => ⟨S16384x80x4, .f32⟩
  | .hbm, ⟨54, _⟩ => ⟨S16384x80x4x1, .f32⟩
  | _, _ => ⟨S16384x80x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_c_4 : Ref sig .tc := ⟨.hbm, 40, rfl⟩
abbrev main_call1_v14 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_c_2 : Ref sig .tc := ⟨.hbm, 47, rfl⟩
abbrev main_v16 : Ref sig .tc := ⟨.hbm, 48, rfl⟩
abbrev main_c_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩

abbrev nD : Nat := 1
abbrev τ : Topo := Topo.v7x

variable {F : FTy → Type} [FloatOps F]

class Facts₀ : Prop where
  bcast_S16384x10x8_S16384x10x8x1_0_1_2 : S16384x10x8.BroadcastsInDim S16384x10x8x1 (![0, 1, 2] : Fin 3 → Fin S16384x10x8x1.rank)
  bcast_S80_S1x1x1x80_3 : S80.BroadcastsInDim S1x1x1x80 (![3] : Fin 1 → Fin S1x1x1x80.rank)
  bcast_S16384x10x8x1_S16384x10x8x80_0_1_2_3 : S16384x10x8x1.BroadcastsInDim S16384x10x8x80 (![0, 1, 2, 3] : Fin 4 → Fin S16384x10x8x80.rank)
  bcast_S1x1x1x80_S16384x10x8x80_0_1_2_3 : S1x1x1x80.BroadcastsInDim S16384x10x8x80 (![0, 1, 2, 3] : Fin 4 → Fin S16384x10x8x80.rank)
  reducesTo_S16384x10x8x80_S16384x10x80_d2 : S16384x10x8x80.ReducesTo [2] S16384x10x80
  h_S_ : 0 < S_.numel
  bcast_S_S16384x80x4 : S_.BroadcastsInDim S16384x80x4 (![] : Fin 0 → Fin S16384x80x4.rank)
  shapeCasts_S16384x80x4_S16384x1x320 : S16384x80x4.ShapeCasts S16384x1x320
  bcast_S16384x1x320_S16384x10x320_0_1_2 : S16384x1x320.BroadcastsInDim S16384x10x320 (![0, 1, 2] : Fin 3 → Fin S16384x10x320.rank)
  bcast_S_S16384x10x320 : S_.BroadcastsInDim S16384x10x320 (![] : Fin 0 → Fin S16384x10x320.rank)
  shapeCasts_S16384x10x320_S16384x10x320x1 : S16384x10x320.ShapeCasts S16384x10x320x1
  bcast_S_S16384x10x320x1 : S_.BroadcastsInDim S16384x10x320x1 (![] : Fin 0 → Fin S16384x10x320x1.rank)
  bcast_S1_S1x1x1x1_3 : S1.BroadcastsInDim S1x1x1x1 (![3] : Fin 1 → Fin S1x1x1x1.rank)
  bcast_S1x1x1x1_S16384x10x320x1_0_1_2_3 : S1x1x1x1.BroadcastsInDim S16384x10x320x1 (![0, 1, 2, 3] : Fin 4 → Fin S16384x10x320x1.rank)
  reducesTo_S16384x10x320x1_S16384x10x320_d3 : S16384x10x320x1.ReducesTo [3] S16384x10x320
  shapeCasts_S16384x10x320_S16384x10x80x4 : S16384x10x320.ShapeCasts S16384x10x80x4
  bcast_S16384x10x80_S16384x10x80x1_0_1_2 : S16384x10x80.BroadcastsInDim S16384x10x80x1 (![0, 1, 2] : Fin 3 → Fin S16384x10x80x1.rank)
  bcast_S16384x10x80x1_S16384x10x80x4_0_1_2_3 : S16384x10x80x1.BroadcastsInDim S16384x10x80x4 (![0, 1, 2, 3] : Fin 4 → Fin S16384x10x80x4.rank)
  reducesTo_S16384x10x80x4_S16384x80x4_d1 : S16384x10x80x4.ReducesTo [1] S16384x80x4
  shapeCasts_S16384x80x4_S16384x80x4x1 : S16384x80x4.ShapeCasts S16384x80x4x1
  gather_S16384x10x80_S16384x10x320x1_S16384x10x320_n_2_01_01_2_3_111_wf : GatherDims.WF S16384x10x80 S16384x10x320x1 S16384x10x320 [] [2] [0, 1] [2] [0, 1] 3 ![1, 1, 1]

variable [Facts₀]

def gather_S16384x10x80_S16384x10x320x1_S16384x10x320_n_2_01_01_2_3_111 : GatherDims S16384x10x80 S16384x10x320x1 S16384x10x320 where
  offsetDims := []
  collapsedSliceDims := [2]
  operandBatchingDims := [0, 1]
  startIndicesBatchingDims := [0, 1]
  startIndexMap := [2]
  indexVectorDim := 3
  sliceSizes := ![1, 1, 1]
  wf := gather_S16384x10x80_S16384x10x320x1_S16384x10x320_n_2_01_01_2_3_111_wf

class Facts : Prop extends Facts₀ where

variable [Facts]
-- ==== Proof.BondBit.lean ====
/-
  The ring-bond indicator, as one proposition about one entry, and the one-bit words that carry it.

  A molecule has ten rings of eight member slots; an entry of the result belongs to an atom `a` and one of its
  neighbour slots, holding the neighbour's id `e` (or `-1` for an empty slot). The entry is `1` exactly when some ring
  lists both `a` and the neighbour's id clamped into `[0, 79]`, and the slot is not empty. Both programs compute this bit
  with one-bit ORs and ANDs of equality tests, in different arrangements; here are the laws that turn such a bit
  into the proposition it decides: an OR is `1` iff one side is, an AND iff both are, an equality test of two integers
  converted exactly to reals is `1` iff the integers are equal, and two one-bit words that are `1` under the same
  condition are equal. Last, how the bit becomes the number `0` or `1`: widened to 32 bits and converted as a signed
  integer, or converted directly as an unsigned one — the same real.
-/
import Idealize.ShloMosaic.PureOps.Ideal
import Idealize.ShloMosaic.Lib.ValueIdx

noncomputable section

namespace Cert.RingBond

open Idealize.ShloMosaic

/-- Some ring lists both words `a` and `y` among its eight members. -/
def Bonded (ring : Fin 10 → Fin 8 → BitVec 32) (a y : BitVec 32) : Prop :=
  ∃ r : Fin 10, (∃ s : Fin 8, ring r s = a) ∧ (∃ s : Fin 8, ring r s = y)

/-- A neighbour id clamped into the atoms' range `[0, 79]` (signed). -/
def clip (e : BitVec 32) : BitVec 32 := IntOp.minsi 79#32 (IntOp.maxsi 0#32 e)

open Classical in
/-- The bit a proposition decides. -/
def bitOf (P : Prop) : BitVec 1 := BitVec.ofBool (decide P)

theorem bitOf_eq_one_iff (P : Prop) : bitOf P = 1#1 ↔ P := by
  unfold bitOf
  by_cases h : P
  · simp [h]
  · simp [h]

/-- Two one-bit words that are `1` under the same condition are equal. -/
theorem bit_ext {a b : BitVec 1} (h : a = 1#1 ↔ b = 1#1) : a = b := by
  rcases BitVec.eq_zero_or_eq_one a with rfl | rfl <;> rcases BitVec.eq_zero_or_eq_one b with rfl | rfl
  · rfl
  · exact absurd (h.mpr rfl) (by decide)
  · exact absurd (h.mp rfl) (by decide)
  · rfl

/-- A one-bit word that is `1` exactly when `P` holds is the bit `P` decides. -/
theorem eq_bitOf {w : BitVec 1} {P : Prop} (h : w = 1#1 ↔ P) : w = bitOf P :=
  bit_ext (h.trans (bitOf_eq_one_iff P).symm)

theorem ori_eq_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

theorem zero_ne_one_bit : ((0#1 : BitVec 1) = 1#1) ↔ False := by decide

/-- Two 32-bit integers converted exactly to (extended) reals compare equal iff they are equal. -/
theorem cmpf_sitofp_eq_one_iff {φ : FTy} (x y : BitVec 32) :
    FloatOps.cmpf (F := Ideal) (φ := φ) .oeq (FloatOps.sitofp φ x) (FloatOps.sitofp φ y) = 1#1 ↔ x = y := by
  show BitVec.ofBool (decide (((x.toInt : ℝ) : EReal) = ((y.toInt : ℝ) : EReal))) = 1#1 ↔ x = y
  by_cases h : x = y
  · subst h; simp
  · have h' : ¬ (((x.toInt : ℝ) : EReal) = ((y.toInt : ℝ) : EReal)) := by
      intro e
      exact h (BitVec.toInt_inj.mp (Int.cast_injective (EReal.coe_injective e)))
    simp [h, h']

/-- A bit widened to 32 bits and converted as a signed integer is the bit's number. -/
theorem sitofp_extui (w : BitVec 1) :
    FloatOps.sitofp (F := Ideal) .f32 (w.setWidth 32) = (((w.toNat : ℕ) : ℝ) : EReal) := by
  show ((((w.setWidth 32).toInt : ℤ) : ℝ) : EReal) = _
  rcases BitVec.eq_zero_or_eq_one w with rfl | rfl
  · simp
  · have : ((1#1 : BitVec 1).setWidth 32).toInt = 1 := by decide
    rw [this]; simp

/-- A bit converted as an unsigned integer is the bit's number. -/
theorem uitofp_bit (w : BitVec 1) : FloatOps.uitofp (F := Ideal) .f32 w = (((w.toNat : ℕ) : ℝ) : EReal) := rfl

end Cert.RingBond

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Columns.lean ====
/-
  One column of a matrix, as the kernel's body takes it: the slice of column `k` of a `[a, K]` array, flattened to a
  vector of `a` entries and stood up again as a column `[a, 1]`, reads at row `p` the matrix entry `(p, k)`; broadcast
  along the lanes it reads that entry at every lane of row `p` (the column broadcast is the lemma of the Keepdims file).
-/
import proofs.«107175_j64682207477991_2_alg».proof.Proof.LibKeepdims
import Idealize.ShloMosaic.Lib.ValueLayout

namespace Cert.RingBond

open Idealize.ShloMosaic Idealize.ShloMosaic.ValueIdx

variable {α : Type}

/-- A column `[a, 1]` flattened to `[a]` reads, at `i`, the column's entry `i`: the row-major position of `(i, 0)` in
    `[a, 1]` is `i · 1 + 0`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column that can be sliced out of a `[a, K]` array at offset `k` has `k < K`. -/
theorem col_lt {a K k : ℕ} (h1 : (⟨2, ![a, K]⟩ : Shape).Slices ![0, k] ⟨2, ![a, 1]⟩) : k < K := by
  obtain ⟨h, hh⟩ := h1
  have h' : k + 1 ≤ K := hh (1 : Fin 2)
  omega

/-- Column `k` of a `[a, K]` array, sliced, flattened and stood up again, reads at `(p, u)` the array at `(p, k)`. -/
theorem column_apply {a K : ℕ} (k : ℕ) (v : (⟨2, ![a, K]⟩ : Shape).Idx → α)
    (h1 : (⟨2, ![a, K]⟩ : Shape).Slices ![0, k] ⟨2, ![a, 1]⟩)
    (h2 : (⟨2, ![a, 1]⟩ : Shape).ShapeCasts ⟨1, ![a]⟩) (h3 : (⟨1, ![a]⟩ : Shape).ShapeCasts ⟨2, ![a, 1]⟩)
    (p : Fin a) (u : Fin 1) :
    shapeCast ⟨2, ![a, 1]⟩ (shapeCast ⟨1, ![a]⟩ (extractStridedSlice ⟨2, ![a, 1]⟩ ![0, k] v h1) h2) h3 (ix2 p u)
      = v (ix2 p ⟨k, col_lt h1⟩) := by
  rw [Keepdims.shapeCast_a_a1_apply, shapeCast_a1_a_apply,
    slice2_axis1_apply k v h1 p (0 : Fin 1) ⟨k, col_lt h1⟩ (by simp)]

end Cert.RingBond
-- ==== Proof.BodyBit.lean ====
/-
  The kernel body's result at one entry of its block.

  The body holds, per row `p` of a block, the eighty ring-member ids of that molecule (ten rings of eight, side by
  side) and per lane `l` an atom id `A` and a clamped neighbour id `Y`, all converted exactly to reals. It takes the
  member columns one at a time, compares each with `A` and with `Y` on every lane, ORs the eight comparisons of a
  ring for `A` and for `Y`, ANDs the two, ORs the ten rings from `0`, ANDs with the mask `v6` of non-empty slots,
  and turns the bit into `0.0` or `1.0`. Read at `(p, l)` that is the number of the bit deciding: some ring of row `p`
  lists both `A (p, l)` and `Y (p, l)`, and `v6 (p, l)` is set.
-/
import proofs.«107175_j64682207477991_2_alg».proof.Proof.Gen.KernelIdeal.Skeleton
import proofs.«107175_j64682207477991_2_alg».proof.Proof.BondBit
import proofs.«107175_j64682207477991_2_alg».proof.Proof.Columns

set_option maxRecDepth 16384

noncomputable section

namespace Cert.RingBond

open Cert.KernelIdeal Cert.KernelIdeal.Gen Idealize.ShloMosaic Idealize.ShloMosaic.ValueIdx

theorem ori_apply {s : Shape} {w : ℕ} (x y : IVec s w) (i : s.Idx) : ori x y i = IntOp.ori (x i) (y i) := rfl
theorem andi_apply {s : Shape} {w : ℕ} (x y : IVec s w) (i : s.Idx) : andi x y i = IntOp.andi (x i) (y i) := rfl

/-- A statement about one of eight slots, slot by slot. -/
theorem exists_fin8 (Q : Fin 8 → Prop) :
    (∃ s, Q s) ↔ (((((((Q 0 ∨ Q 1) ∨ Q 2) ∨ Q 3) ∨ Q 4) ∨ Q 5) ∨ Q 6) ∨ Q 7) := by
  constructor
  · rintro ⟨s, hs⟩
    fin_cases s <;> simp_all
  · rintro (((((((h | h) | h) | h) | h) | h) | h) | h) <;> exact ⟨_, h⟩

/-- A statement about one of ten rings, ring by ring. -/
theorem exists_fin10 (Q : Fin 10 → Prop) :
    (∃ r, Q r) ↔ (((((((((Q 0 ∨ Q 1) ∨ Q 2) ∨ Q 3) ∨ Q 4) ∨ Q 5) ∨ Q 6) ∨ Q 7) ∨ Q 8) ∨ Q 9) := by
  constructor
  · rintro ⟨r, hr⟩
    fin_cases r <;> simp_all
  · rintro (((((((((h | h) | h) | h) | h) | h) | h) | h) | h) | h) <;> exact ⟨_, h⟩

/-- The member of ring `r`, slot `s`, of row `p` of a block of flattened rings. -/
abbrev ringOf (x1 : IVec S1024x80 32) (p : Fin 1024) (r : Fin 10) (s : Fin 8) : BitVec 32 :=
  x1 (ix2 p ⟨8 * r.val + s.val, by omega⟩)

set_option maxHeartbeats 4000000 in
/-- THE BODY AT AN ENTRY: the stored block at `(p, l)` is the number of the ring-bond bit of row `p`'s rings, the
    lane's atom id and clamped neighbour id, and the lane's mask bit. -/
theorem body_apply (v6 : IVec S1024x320 1) (A Y : IVec S1024x320 32) (x1 : IVec S1024x80 32) (p : Fin 1024) (l : Fin 320) :
    (k0_pay92 (F := Ideal) v6 (sitofp (F := Ideal) .bf16 A) (sitofp (F := Ideal) .bf16 Y) (k0_pay5 (F := Ideal) x1) (k0_pay87 (F := Ideal) (sitofp (F := Ideal) .bf16 A) (sitofp (F := Ideal) .bf16 Y) (k0_pay5 (F := Ideal) x1) (k0_pay80 (F := Ideal) (sitofp (F := Ideal) .bf16 A) (sitofp (F := Ideal) .bf16 Y) (k0_pay5 (F := Ideal) x1) (k0_pay70 (F := Ideal) (sitofp (F := Ideal) .bf16 A) (sitofp (F := Ideal) .bf16 Y) (k0_pay5 (F := Ideal) x1) (k0_pay61 (F := Ideal) (sitofp (F := Ideal) .bf16 A) (sitofp (F := Ideal) .bf16 Y) (k0_pay49 (F := Ideal) (sitofp (F := Ideal) .bf16 A) (sitofp (F := Ideal) .bf16 Y) (k0_pay5 (F := Ideal) x1) (k0_pay44 (F := Ideal) (sitofp (F := Ideal) .bf16 A) (sitofp (F := Ideal) .bf16 Y) (k0_pay5 (F := Ideal) x1) (k0_pay37 (F := Ideal) (sitofp (F := Ideal) .bf16 A) (sitofp (F := Ideal) .bf16 Y) (k0_pay5 (F := Ideal) x1) (k0_pay27 (F := Ideal) (sitofp (F := Ideal) .bf16 A) (sitofp (F := Ideal) .bf16 Y) (k0_pay5 (F := Ideal) x1) (k0_pay18 (F := Ideal) (sitofp (F := Ideal) .bf16 A) (sitofp (F := Ideal) .bf16 Y) k0_pay6 (k0_pay15 (F := Ideal) (sitofp (F := Ideal) .bf16 A) (k0_pay5 (F := Ideal) x1) (k0_pay8 (F := Ideal) x1)) (k0_pay16 (F := Ideal) (sitofp (F := Ideal) .bf16 Y) (k0_pay5 (F := Ideal) x1) (k0_pay7 (F := Ideal) x1)) (k0_pay17 (F := Ideal) (k0_pay5 (F := Ideal) x1))) (k0_pay25 (F := Ideal) (sitofp (F := Ideal) .bf16 A) (k0_pay5 (F := Ideal) x1)) (k0_pay26 (F := Ideal) (sitofp (F := Ideal) .bf16 Y) (k0_pay5 (F := Ideal) x1))) (k0_pay32 (F := Ideal) (sitofp (F := Ideal) .bf16 A) (k0_pay5 (F := Ideal) x1)) (k0_pay33 (F := Ideal) (sitofp (F := Ideal) .bf16 Y) (k0_pay5 (F := Ideal) x1)) (k0_pay35 (F := Ideal) (sitofp (F := Ideal) .bf16 A) (k0_pay5 (F := Ideal) x1)) (k0_pay36 (F := Ideal) (k0_pay5 (F := Ideal) x1))) (k0_pay41 (F := Ideal) (sitofp (F := Ideal) .bf16 A) (k0_pay5 (F := Ideal) x1)) (k0_pay42 (F := Ideal) (sitofp (F := Ideal) .bf16 Y) (k0_pay5 (F := Ideal) x1)) (k0_pay43 (F := Ideal) (k0_pay5 (F := Ideal) x1))) (k0_pay47 (F := Ideal) (sitofp (F := Ideal) .bf16 A) (k0_pay5 (F := Ideal) x1)) (k0_pay48 (F := Ideal) (sitofp (F := Ideal) .bf16 Y) (k0_pay5 (F := Ideal) x1))) (k0_pay58 (F := Ideal) (sitofp (F := Ideal) .bf16 A) (k0_pay5 (F := Ideal) x1) (k0_pay51 (F := Ideal) (k0_pay5 (F := Ideal) x1))) (k0_pay59 (F := Ideal) (sitofp (F := Ideal) .bf16 Y) (k0_pay5 (F := Ideal) x1) (k0_pay50 (F := Ideal) (k0_pay5 (F := Ideal) x1))) (k0_pay60 (F := Ideal) (k0_pay5 (F := Ideal) x1))) (k0_pay68 (F := Ideal) (sitofp (F := Ideal) .bf16 A) (k0_pay5 (F := Ideal) x1)) (k0_pay69 (F := Ideal) (sitofp (F := Ideal) .bf16 Y) (k0_pay5 (F := Ideal) x1))) (k0_pay75 (F := Ideal) (sitofp (F := Ideal) .bf16 A) (k0_pay5 (F := Ideal) x1)) (k0_pay76 (F := Ideal) (sitofp (F := Ideal) .bf16 Y) (k0_pay5 (F := Ideal) x1)) (k0_pay78 (F := Ideal) (sitofp (F := Ideal) .bf16 A) (k0_pay5 (F := Ideal) x1)) (k0_pay79 (F := Ideal) (k0_pay5 (F := Ideal) x1))) (k0_pay84 (F := Ideal) (sitofp (F := Ideal) .bf16 A) (k0_pay5 (F := Ideal) x1)) (k0_pay85 (F := Ideal) (sitofp (F := Ideal) .bf16 Y) (k0_pay5 (F := Ideal) x1)) (k0_pay86 (F := Ideal) (k0_pay5 (F := Ideal) x1))) (k0_pay90 (F := Ideal) (sitofp (F := Ideal) .bf16 A) (k0_pay5 (F := Ideal) x1)) (k0_pay91 (F := Ideal) (sitofp (F := Ideal) .bf16 Y) (k0_pay5 (F := Ideal) x1)) : FVec Ideal S1024x320 .f32) (ix2 p l)
      = ((((bitOf (Bonded (ringOf x1 p) (A (ix2 p l)) (Y (ix2 p l)) ∧ v6 (ix2 p l) = 1#1)).toNat : ℕ) : ℝ) : EReal) := by
  simp only [k0_pay92, sitofp_apply, extui_apply, sitofp_extui]
  refine congrArg (fun w : BitVec 1 => (((w.toNat : ℕ) : ℝ) : EReal)) (eq_bitOf ?_)
  simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, andi_apply, ori_apply, cmpf_apply, sitofp_apply, broadcast_apply,
    Keepdims.broadcastTo_a1_ab_apply, column_apply, shapeCast_self,
    andi_eq_one_iff, ori_eq_one_iff, cmpf_sitofp_eq_one_iff, zero_ne_one_bit, false_or]
  simp only [Bonded, ringOf, exists_fin10, exists_fin8]
  exact Iff.rfl

end Cert.RingBond

end
-- ==== Proof.BodyInputs.lean ====
/-
  What the kernel body computes from its loaded blocks before the ring comparisons, entry by entry.

  From the edge block: the neighbour id of every lane as a signed integer (the float truncated toward zero), the mask
  of lanes whose id is not `-1`, and the id clamped into `[0, 79]`. From nothing but the lane number: the atom the lane
  belongs to, `l / 4` — the body computes the floor division as a truncating signed division corrected where the signs
  differ, which on the non-negative lane numbers `0 … 319` is the plain quotient (decided lane by lane).
-/
import proofs.«107175_j64682207477991_2_alg».proof.Proof.Gen.KernelIdeal.Skeleton
import proofs.«107175_j64682207477991_2_alg».proof.Proof.BondBit
import Idealize.ShloMosaic.Lib.Pipeline.Value
import Idealize.ShloMosaic.Lib.Affine

set_option maxRecDepth 16384

noncomputable section

namespace Cert.RingBond

open Cert.KernelIdeal Cert.KernelIdeal.Gen Idealize.ShloMosaic Idealize.ShloMosaic.ValueIdx

/-- The floor of `L / 4` as the body spells it for a signed word `L`: the truncating quotient, less one where the
    operands' signs differ and the remainder is not zero. -/
def atomWord (L : BitVec 32) : BitVec 32 :=
  Scalar.select
    (IntOp.andi
      (IntOp.cmpi .ne
        (IntOp.subi ((IntOp.cmpi .sgt L 0#32).setWidth 32) ((IntOp.cmpi .slt L 0#32).setWidth 32))
        (Scalar.subi (Scalar.extui (Scalar.cmpi .sgt 4#32 0#32)) (Scalar.extui (Scalar.cmpi .slt 4#32 0#32))))
      (IntOp.cmpi .ne (IntOp.remsi .vector L 4#32) 0#32))
    (IntOp.subi (IntOp.divsi .vector L 4#32) 1#32)
    (IntOp.divsi .vector L 4#32)

/-- The atom ids of a block's lanes, as integers: the body's value before its conversion to reals. -/
def atomInts : IVec S1024x320 32 :=
  have v11 : IVec S1024x320 32 := iota .tc S1024x320 32 [1] iota_S1024x320_d1_w32
  have v12 : IVec S1024x320 32 := broadcast S1024x320 4#32
  have v13 : IVec S1024x320 32 := divsi v11 v12
  have v14 : IVec S1024x320 32 := broadcast S1024x320 0#32
  have v15 : IVec S1024x320 1 := cmpi .sgt v11 v14
  have v16 : IVec S1024x320 32 := extui 32 v15 natLt_1_32
  have v17 : IVec S1024x320 32 := broadcast S1024x320 0#32
  have v18 : IVec S1024x320 1 := cmpi .slt v11 v17
  have v19 : IVec S1024x320 32 := extui 32 v18 natLt_1_32
  have v20 : IVec S1024x320 32 := subi v16 v19
  let v21 : BitVec 1 := Scalar.cmpi .sgt 4#32 0#32
  let v22 : BitVec 32 := Scalar.extui v21
  let v23 : BitVec 1 := Scalar.cmpi .slt 4#32 0#32
  let v24 : BitVec 32 := Scalar.extui v23
  let v25 : BitVec 32 := Scalar.subi v22 v24
  have v26 : IVec S1024x320 32 := broadcast S1024x320 v25
  have v27 : IVec S1024x320 1 := cmpi .ne v20 v26
  have v28 : IVec S1024x320 32 := broadcast S1024x320 4#32
  have v29 : IVec S1024x320 32 := remsi v11 v28
  have v30 : IVec S1024x320 32 := broadcast S1024x320 0#32
  have v31 : IVec S1024x320 1 := cmpi .ne v29 v30
  have v32 : IVec S1024x320 1 := andi v27 v31
  have v33 : IVec S1024x320 32 := broadcast S1024x320 1#32
  have v34 : IVec S1024x320 32 := subi v13 v33
  have v35 : IVec S1024x320 32 := select v32 v34 v13
  v35

/-- The body's atom ids are those integers converted exactly. -/
theorem pay3_eq : k0_pay3 (F := Ideal) = sitofp (F := Ideal) .bf16 atomInts := rfl

/-- At lane `l` the atom id is the corrected quotient of the lane number. -/
theorem atomInts_apply (p : Fin 1024) (l : Fin 320) :
    atomInts (ix2 p l) = atomWord (BitVec.ofNat 32 (0 * 320 + l.val)) := rfl

/-- On the lane numbers of a block the corrected quotient is `l / 4`. -/
theorem atomWord_lane : ∀ l : Fin 320, atomWord (BitVec.ofNat 32 (0 * 320 + l.val)) = BitVec.ofNat 32 (l.val / 4) := by
  decide +kernel

/-- The neighbour ids of a block's lanes, clamped into `[0, 79]`. -/
def clipInts (x0 : Vec Ideal S1024x320 .f32) : IVec S1024x320 32 :=
  minsi (broadcast S1024x320 79#32) (maxsi (broadcast S1024x320 0#32) (k0_pay1 (F := Ideal) x0))

theorem pay4_eq (x0 : Vec Ideal S1024x320 .f32) : k0_pay4 (F := Ideal) x0 = sitofp (F := Ideal) .bf16 (clipInts x0) := rfl

/-- A lane's neighbour id is its edge value truncated to a signed integer. -/
theorem pay1_apply (x0 : Vec Ideal S1024x320 .f32) (i : S1024x320.Idx) :
    k0_pay1 (F := Ideal) x0 i = Ideal.fptosi 32 (x0 i) := by
  unfold k0_pay1
  rw [shapeCast_self]
  rfl

theorem clipInts_apply (x0 : Vec Ideal S1024x320 .f32) (i : S1024x320.Idx) :
    clipInts x0 i = clip (Ideal.fptosi 32 (x0 i)) := by
  show IntOp.minsi 79#32 (IntOp.maxsi 0#32 (k0_pay1 (F := Ideal) x0 i)) = _
  rw [pay1_apply]
  rfl

/-- The mask bit of a lane is set iff its neighbour id is not `-1`. -/
theorem pay2_apply (x0 : Vec Ideal S1024x320 .f32) (i : S1024x320.Idx) :
    k0_pay2 (F := Ideal) x0 i = 1#1 ↔ Ideal.fptosi 32 (x0 i) ≠ 4294967295#32 := by
  show IntOp.cmpi .ne (k0_pay1 (F := Ideal) x0 i) 4294967295#32 = 1#1 ↔ _
  rw [pay1_apply]
  exact IntOp.cmpi_ne

end Cert.RingBond

end
-- ==== Proof.BondSpec.lean ====
/-
  The ring-bond result as one function of the two argument arrays.

  Entry `(b, a, d, 0)` of the result is `1.0` when some ring of molecule `b` lists both atom `a` and the neighbour in
  slot `d` of atom `a` — the edge value truncated to an integer and clamped into `[0, 79]` — and that slot is not the
  empty one (`-1`); it is `0.0` otherwise.
-/
import proofs.«107175_j64682207477991_2_alg».proof.Proof.BondBit

noncomputable section

namespace Cert.RingBond

open Idealize.ShloMosaic Idealize.ShloMosaic.ValueIdx

/-- The ring-bond entry from its ingredients: the molecule's rings, the atom's id, the edge value. -/
def bondEntry (ring : Fin 10 → Fin 8 → BitVec 32) (a : ℕ) (x : EReal) : EReal :=
  ((((bitOf (Bonded ring (BitVec.ofNat 32 a) (clip (Ideal.fptosi 32 x)) ∧ Ideal.fptosi 32 x ≠ 4294967295#32)).toNat : ℕ) : ℝ) : EReal)

/-- The whole result: entry `(b, a, d, u)` from molecule `b`'s rings, atom `a` and the edge value at `(b, a, d)`. -/
def bondArray (edges : (⟨3, ![16384, 80, 4]⟩ : Shape).Idx → EReal) (rings : (⟨3, ![16384, 10, 8]⟩ : Shape).Idx → BitVec 32) :
    (⟨4, ![16384, 80, 4, 1]⟩ : Shape).Idx → EReal :=
  fun i => bondEntry (fun r s => rings (ix3 (i 0) r s)) (i 1).val (edges (ix3 (i 0) (i 1) (i 2)))

end Cert.RingBond

end
-- ==== Proof.BlockValue.lean ====
/-
  From the body's block to the whole flat result.

  The region sees the edges flattened to `[16384, 320]` (lane `l = 4·a + d`) and the rings to `[16384, 80]` (member
  `8·r + s`), and cuts all three arrays into sixteen blocks of 1024 rows, whole rows each. What a grid point writes
  back is therefore the restriction to its rows of ONE function of the two flat arrays, `bondFlat`: entry `(b, l)` is
  the number of the bit "some ring of molecule `b` lists both atom `l / 4` and the clamped neighbour id of entry
  `(b, l)`, and that id is not `-1`". The sixteen blocks cover the array (row `b` lies in block `b / 1024`), so the
  array ends holding `bondFlat` of the two flat arrays.
-/
import proofs.«107175_j64682207477991_2_alg».proof.Proof.Gen.KernelIdeal.Frame
import proofs.«107175_j64682207477991_2_alg».proof.Proof.BodyBit
import proofs.«107175_j64682207477991_2_alg».proof.Proof.BodyInputs
import proofs.«107175_j64682207477991_2_alg».proof.Proof.BondSpec
import Idealize.ShloMosaic.Lib.Pipeline.Value

set_option maxRecDepth 16384

noncomputable section

namespace Cert.RingBond

open Cert.KernelIdeal Cert.KernelIdeal.Gen Idealize.ShloMosaic Idealize.ShloMosaic.TcCoe Idealize.ShloMosaic.ValueIdx
open Idealize.SL.Sem Idealize.ShloMosaic.Pipeline

/-- The flat result as one function of the flat edges and the flat rings. -/
def bondFlat (E : S16384x320.Idx → EReal) (R : S16384x80.Idx → BitVec 32) : S16384x320.Idx → EReal :=
  fun i => bondEntry (fun r s => R (ix2 (i 0) ⟨8 * r.val + s.val, by omega⟩)) ((i 1).val / 4) (E i)

theorem hz : (![0, 0] : Fin 2 → Nat) = fun _ => 0 := funext fun a => by fin_cases a <;> rfl

/-- What the body leaves in the output block, at row `p` and lane `l`, from the two input blocks. -/
theorem out_entry (x0 : Vec Ideal S1024x320 .f32) (x1 : Vec Ideal S1024x80 .i32) (p : Fin 1024) (l : Fin 320) :
    out0_2 (F := Ideal) x0 x1 (ix2 p l) = bondEntry (ringOf x1 p) (l.val / 4) (x0 (ix2 p l)) := by
  unfold out0_2
  rw [View.canon_unit_zero hz]
  simp only [View.ld_unit_zero (S := S1024x320) hz, View.ld_unit_zero (S := S1024x80) hz]
  rw [pay3_eq, pay4_eq]
  refine (body_apply (k0_pay2 (F := Ideal) x0) atomInts (clipInts x0) x1 p l).trans ?_
  rw [atomInts_apply, atomWord_lane, clipInts_apply,
    show (k0_pay2 (F := Ideal) x0 (ix2 p l) = 1#1) = (Ideal.fptosi 32 (x0 (ix2 p l)) ≠ 4294967295#32) from
      propext (pay2_apply x0 _)]
  rfl

/-- What the body leaves in the output block at any entry. -/
theorem out_apply (x0 : Vec Ideal S1024x320 .f32) (x1 : Vec Ideal S1024x80 .i32) (j : S1024x320.Idx) :
    out0_2 (F := Ideal) x0 x1 j = bondEntry (ringOf x1 (j 0)) ((j 1).val / 4) (x0 j) := by
  obtain ⟨p, l, rfl⟩ : ∃ (p : Fin 1024) (l : Fin 320), j = ix2 p l := ⟨j 0, j 1, eq_ix2 j⟩
  exact out_entry x0 x1 p l

variable (m : (ℓ : Loc nD τ sig) → Buf (Elt Ideal) ℓ) (ρ : Dev nD → PrngReg)

/-- The printed index maps, decided over the sixteen grid points: the three windows move together along the rows
    and never along the lanes. -/
theorem idx_facts : ∀ t : Fin cfg0.N, win0_0.index t (0 : Fin 2) = win0_2.index t (0 : Fin 2)
    ∧ win0_1.index t (0 : Fin 2) = win0_2.index t (0 : Fin 2)
    ∧ win0_0.index t (1 : Fin 2) = 0 ∧ win0_1.index t (1 : Fin 2) = 0 ∧ win0_2.index t (1 : Fin 2) = 0
    ∧ win0_2.index t (0 : Fin 2) ≤ 15 :=
  (by decide +kernel : ∀ t : Fin grid0.N, _)

/-- Every block of rows is some point's. -/
theorem idx_onto : ∀ q : Fin 16, ∃ t : Fin cfg0.N, win0_2.index t = ![q.val, 0] :=
  (by decide +kernel : ∀ q : Fin 16, ∃ t : Fin grid0.N, win0_2.index t = ![q.val, 0])

/-- WHAT POINT `t` WRITES BACK is block `t` of `bondFlat` of the two flat arrays as the region finds them. -/
theorem flushed_eq (c : Dev nD) (t : Fin cfg0.N) :
    (dats m 0 c).flushed 2 t
      = ((cfg0.win 2).blk t).view.read (Elt Ideal) (bondFlat (V m c main_v0) (V m c main_v1)) := by
  show (cfg0.win 2).cut (grid0.coords t) ((dats m 0 c).after 2 t) = _
  rw [after0_2]
  obtain ⟨e0, e1, e2, e3, e4, e5⟩ := idx_facts t
  funext j
  show out0_2 (F := Ideal) (iblk m c 0 t) (iblk m c 1 t) j
    = bondFlat (V m c main_v0) (V m c main_v1) (((cfg0.win 2).blk t).view.emb j)
  refine (out_apply (iblk m c 0 t) (iblk m c 1 t) j).trans ?_
  have hj0 : (j 0).val < 1024 := (j 0).isLt
  have hj1 : (j 1).val < 320 := (j 1).isLt
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 320 + 1 * (j 1).val = win0_2.index t (1 : Fin 2) * 320 + 1 * (j 1).val; omega
  have hl : ((((cfg0.win 2).blk t).view.emb j) 1).val = (j 1).val := by
    show win0_2.index t (1 : Fin 2) * 320 + 1 * (j 1).val = (j 1).val; omega
  unfold bondFlat
  show bondEntry (ringOf (iblk m c 1 t) (j 0)) ((j 1).val / 4) (V m c main_v0 (((cfg0.win 0).blk t).view.emb j)) = _
  rw [h0, hl]
  refine congrArg (fun ring => bondEntry ring ((j 1).val / 4) (V m c main_v0 (((cfg0.win 2).blk t).view.emb j))) ?_
  funext r s
  show V m c main_v1 (((cfg0.win 1).blk t).view.emb (ix2 (j 0) ⟨8 * r.val + s.val, by omega⟩)) = V m c main_v1 _
  refine congrArg (V m c main_v1) ?_
  funext a; apply Fin.ext
  have hr : r.val < 10 := r.isLt
  have hs : s.val < 8 := s.isLt
  match a with
  | ⟨0, _⟩ => show win0_1.index t (0 : Fin 2) * 1024 + 1 * (j 0).val = win0_2.index t (0 : Fin 2) * 1024 + 1 * (j 0).val; omega
  | ⟨1, _⟩ => show win0_1.index t (1 : Fin 2) * 80 + 1 * (8 * r.val + s.val) = 8 * r.val + s.val; omega

/-- An index of the array is in point `t`'s block iff each coordinate is in the block's range on its axis. -/
theorem mem_blk (t : Fin cfg0.N) (i : S16384x320.Idx) :
    i ∈ ((cfg0.win 2).blk t).view.set ↔ ∀ a : Fin 2, win0_2.index t a * S1024x320.size a ≤ (i a).val ∧ (i a).val < win0_2.index t a * S1024x320.size a + S1024x320.size a := by
  show i ∈ ((View.whole main_v2).slice (win0_2.rect t)).set ↔ _
  rw [View.set_slice_whole, Rect.mem_set_unit]
  exact Iff.rfl

/-- The sixteen blocks cover the array: row `b` is in the block of point `b / 1024`. -/
theorem cover (i : S16384x320.Idx) :
    ∃ t : Fin cfg0.N, (cfg0.win 2).flush t = true ∧ i ∈ ((cfg0.win 2).blk t).view.set := by
  have hi0 : (i 0).val < 16384 := (i 0).isLt
  have hi1 : (i 1).val < 320 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 320 ≤ (i 1).val ∧ (i 1).val < win0_2.index t (1 : Fin 2) * 320 + 320; omega

/-- THE FLAT RESULT after the run: `bondFlat` of the flat edges and rings as the region finds them. -/
theorem final (c : Dev nD) : (dats m 0 c).arrAt 2 cfg0.N = bondFlat (V m c main_v0) (V m c main_v1) :=
  (dats m 0 c).arrAt_eq_of_cover 2 (bondFlat (V m c main_v0) (V m c main_v1)) (fun t _ => flushed_eq m c t) cover

end Cert.RingBond

end
-- ==== Proof.LibTrailingMerge.lean ====
/-
  Two reshapes read at an index given by coordinates: the one that merges the two trailing axes of a rank-3 array,
  `[a, b, c] → [a, n]` with `n = b · c`, and the one that splits the trailing axis of a matrix in two and appends a unit
  axis, `[a, n] → [a, b, c, 1]`. In both, the merged coordinate is `l = j · c + k`: the two indices have the same
  row-major position.
-/
import Idealize.ShloMosaic.Lib.Pipeline.Value
import Idealize.ShloMosaic.Lib.ValueIdx

namespace Cert.TrailingMerge

open Idealize.ShloMosaic Idealize.ShloMosaic.ValueIdx

variable {α : Type}

/-- `[a, b, c]` reshaped to `[a, b · c]` reads, at `(i, j · c + k)`, the operand at `(i, j, k)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (l : Fin n) (j : Fin b) (k : Fin c)
    (hl : l.val = j.val * c + k.val) : shapeCast ⟨2, ![a, n]⟩ x h (ix2 i l) = x (ix3 i j k) :=
  shapeCast_apply x h _ _ (by
    rw [Shape.rowMajor_val_three, Shape.rowMajor_val_two]
    show (i.val * b + j.val) * c + k.val = i.val * n + l.val
    subst hn
    rw [hl]
    ring)

/-- `[a, b · c]` reshaped to `[a, b, c, 1]` reads, at `(i, j, k, u)`, the operand at `(i, j · c + k)`. -/
theorem shapeCast_an_abc1_apply {a b c n : ℕ} (hn : n = b * c) (y : (⟨2, ![a, n]⟩ : Shape).Idx → α)
    (h : (⟨2, ![a, n]⟩ : Shape).ShapeCasts ⟨4, ![a, b, c, 1]⟩) (i : Fin a) (j : Fin b) (k : Fin c) (u : Fin 1) (l : Fin n)
    (hl : l.val = j.val * c + k.val) : shapeCast ⟨4, ![a, b, c, 1]⟩ y h (ix4 i j k u) = y (ix2 i l) :=
  shapeCast_apply y h _ _ (by
    rw [Shape.rowMajor_val_two, Shape.rowMajor_val_four]
    show i.val * n + l.val = ((i.val * b + j.val) * c + k.val) * 1 + u.val
    have hu : u.val = 0 := by omega
    subst hn
    rw [hl, hu]
    ring)

end Cert.TrailingMerge
-- ==== Proof.KernelValue.lean ====
/-
  The kernel's result as a function of its two arguments.

  Around the region the program only reshapes: the edges `[16384, 80, 4]` to `[16384, 320]` and the rings
  `[16384, 10, 8]` to `[16384, 80]` before it, the flat result `[16384, 320]` to `[16384, 80, 4, 1]` after it. Entry
  `(b, a, d, 0)` of the result is therefore entry `(b, 4·a + d)` of the flat result, whose lane belongs to atom
  `(4·a + d) / 4 = a`, whose edge value is the argument's at `(b, a, d)`, and whose molecule's member `8·r + s` is the
  argument ring entry `(b, r, s)`: the result is `bondArray` of the two arguments.
-/
import proofs.«107175_j64682207477991_2_alg».proof.Proof.BlockValue
import proofs.«107175_j64682207477991_2_alg».proof.Proof.LibTrailingMerge
import Idealize.ShloMosaic.Lib.StableHlo.Run

set_option maxRecDepth 16384

noncomputable section

namespace Cert.RingBond

open Cert.KernelIdeal Cert.KernelIdeal.Gen Idealize.ShloMosaic Idealize.ShloMosaic.TcCoe Idealize.ShloMosaic.ValueIdx
open Idealize.SL.Sem Idealize.ShloMosaic.Pipeline Idealize.ShloMosaic.StableHlo

/-- The reshaped flat result of the reshaped arguments is `bondArray` of the arguments, entry by entry. -/
theorem kernel_entry (E : S16384x80x4.Idx → EReal) (R : S16384x10x8.Idx → BitVec 32) (i : S16384x80x4x1.Idx) :
    shapeCast S16384x80x4x1
        (bondFlat (shapeCast S16384x320 E shapeCasts_S16384x80x4_S16384x320) (shapeCast S16384x80 R shapeCasts_S16384x10x8_S16384x80))
        shapeCasts_S16384x320_S16384x80x4x1 i
      = bondArray E R i := by
  obtain ⟨b, a, d, u, rfl⟩ : ∃ (b : Fin 16384) (a : Fin 80) (d : Fin 4) (u : Fin 1), i = ix4 b a d u :=
    ⟨i 0, i 1, i 2, i 3, eq_ix4 i⟩
  have ha : a.val < 80 := a.isLt
  have hd : d.val < 4 := d.isLt
  rw [TrailingMerge.shapeCast_an_abc1_apply (n := 320) (b := 80) (c := 4) rfl _ _ b a d u ⟨a.val * 4 + d.val, by omega⟩ rfl]
  show bondEntry (fun r s => shapeCast S16384x80 R shapeCasts_S16384x10x8_S16384x80 (ix2 b ⟨8 * r.val + s.val, by omega⟩))
      ((a.val * 4 + d.val) / 4) (shapeCast S16384x320 E shapeCasts_S16384x80x4_S16384x320 (ix2 b ⟨a.val * 4 + d.val, by omega⟩))
    = bondEntry (fun r s => R (ix3 b r s)) a.val (E (ix3 b a d))
  rw [TrailingMerge.shapeCast_abc_an_apply (n := 320) (b := 80) (c := 4) rfl E _ b _ a d rfl,
    show (a.val * 4 + d.val) / 4 = a.val by omega]
  refine congrArg (fun ring => bondEntry ring a.val (E (ix3 b a d))) ?_
  funext r s
  exact TrailingMerge.shapeCast_abc_an_apply (n := 80) (b := 10) (c := 8) rfl R _ b _ r s (by show 8 * r.val + s.val = r.val * 8 + s.val; omega)

variable (m : (ℓ : Loc nD τ sig) → Buf (Elt Ideal) ℓ) (ρ : Dev nD → PrngReg)

/-- The region finds the edges flattened, -/
theorem V_v0 (c : Dev nD) : (V m c main_v0 : S16384x320.Idx → EReal)
    = shapeCast S16384x320 (m ((c : Thread nD τ).loc main_arg0)) shapeCasts_S16384x80x4_S16384x320 := by
  show StableHlo.after hostOps0 (fun b => m (c, b)) (Proc.devRef .tc main_v0) = _
  after_results
  rfl

/-- and the rings flattened. -/
theorem V_v1 (c : Dev nD) : (V m c main_v1 : S16384x80.Idx → BitVec 32)
    = shapeCast S16384x80 (m ((c : Thread nD τ).loc main_arg1)) shapeCasts_S16384x10x8_S16384x80 := by
  show StableHlo.after hostOps0 (fun b => m (c, b)) (Proc.devRef .tc main_v1) = _
  after_results
  rfl

/-- After the region's flat result is reshaped, the program's result is `bondArray` of the arguments. -/
theorem result_eq (c : Dev nD) :
    Pipeline.afterTail₀ cfgs (dats m) 0 (V0 m) [hostOps1] c main_v3
      = bondArray (m ((c : Thread nD τ).loc main_arg0)) (m ((c : Thread nD τ).loc main_arg1)) := by
  unfold Pipeline.afterTail₀
  show StableHlo.after hostOps1 _ (Proc.devRef .tc main_v3) = _
  after_results
  have hW : Pipeline.withArrays spec0 c (V0 m c) (fun w => (dats m 0 c).arrAt w cfg0.N) (Proc.devRef .tc (Pipeline.arrRef spec0 2))
      = bondFlat (V m c main_v0) (V m c main_v1) :=
    (Pipeline.withArrays_arr spec0 launch0.win.arr_inj c _ _ 2).trans (final m c)
  funext i
  show shapeCast S16384x80x4x1 (Pipeline.withArrays spec0 c (V0 m c) (fun w => (dats m 0 c).arrAt w cfg0.N)
      (Proc.devRef .tc (Pipeline.arrRef spec0 2))) shapeCasts_S16384x320_S16384x80x4x1 i = _
  rw [hW, V_v0, V_v1]
  exact kernel_entry _ _ i

/-- THE KERNEL'S RUN, READ: every weakly fair execution terminates with the result at `bondArray` of the arguments
    and the arguments unchanged. -/
theorem kernel_run : θ_run defs (onTc (τ := τ) (main (F := Ideal))) ⟨m, fun _ => 0, ρ⟩ fun r => ∀ c : Dev nD,
      r.2.mem ((c.tc : Thread nD τ).loc main_v3)
        = bondArray (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.RingBond

end
-- ==== Proof.RefRun.lean ====
/-
  The reference's run, read: every weakly fair execution of the reference ends with its result at the last stage of the
  program read one operation at a time (`val_main_v21` of the two arguments), the arguments unchanged.

  The run itself is the library's (`run_after`: every buffer ends at the fold of the 53 operations from the launch
  contents). To read the result buffer out of that fold the operations are taken in six stretches, and after each
  stretch only the few buffers later stretches read are named: the integer edges and the ring-membership table after
  the first (the nine operations up to the first OR-reduction), the clamped neighbour ids broadcast over the rings
  after the second (the clamp), then the gather's start indices, its in-range mask and the gathered neighbour
  membership (the gather, in three), and the result after the last. Each stretch's buffers are its operations applied
  to the buffers found, so each step is a definitional unfolding of a few stages.
-/
import proofs.«107175_j64682207477991_2_alg».proof.Proof.RefRunPatched
import proofs.«107175_j64682207477991_2_alg».proof.Proof.RefReadPatched

set_option maxRecDepth 16384

noncomputable section

namespace Cert.RingBond.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over a concatenation is the fold over the second list from the fold over the first. -/
theorem after_append (A B : List (HloOp τ sig (Elt F))) (V : Valuation τ sig (Elt F)) :
    after (A ++ B) V = after B (after A V) := by
  induction A generalizing V with
  | nil => rfl
  | cons a A ih => simp only [List.cons_append, after_cons, ih]

/-- Operations 1–9: the integer edges, and the membership table (ring by atom) by an OR over the ring's members. -/
abbrev seg1 : List (HloOp τ sig (Elt F)) :=
  [ unary main_arg0 main_v0 (fptosi 32 : (⟨S16384x80x4, .f32⟩ : BufTy).Contents (Elt F) → (⟨S16384x80x4, .i32⟩ : BufTy).Contents (Elt F)),
    unary main_arg1 main_v1 (broadcastInDim S16384x10x8x1 ![0, 1, 2] bcast_S16384x10x8_S16384x10x8x1_0_1_2 : (⟨S16384x10x8, .i32⟩ : BufTy).Contents (Elt F) → (⟨S16384x10x8x1, .i32⟩ : BufTy).Contents (Elt F)),
    nullary main_v2 (iotaInDim S80 32 0),
    unary main_v2 main_v3 (broadcastInDim S1x1x1x80 ![3] bcast_S80_S1x1x1x80_3 : (⟨S80, .i32⟩ : BufTy).Contents (Elt F) → (⟨S1x1x1x80, .i32⟩ : BufTy).Contents (Elt F)),
    unary main_v1 main_v4 (broadcastInDim S16384x10x8x80 ![0, 1, 2, 3] bcast_S16384x10x8x1_S16384x10x8x80_0_1_2_3 : (⟨S16384x10x8x1, .i32⟩ : BufTy).Contents (Elt F) → (⟨S16384x10x8x80, .i32⟩ : BufTy).Contents (Elt F)),
    unary main_v3 main_v5 (broadcastInDim S16384x10x8x80 ![0, 1, 2, 3] bcast_S1x1x1x80_S16384x10x8x80_0_1_2_3 : (⟨S1x1x1x80, .i32⟩ : BufTy).Contents (Elt F) → (⟨S16384x10x8x80, .i32⟩ : BufTy).Contents (Elt F)),
    binary main_v4 main_v5 main_v6 (cmpi .eq : (⟨S16384x10x8x80, .i32⟩ : BufTy).Contents (Elt F) → (⟨S16384x10x8x80, .i32⟩ : BufTy).Contents (Elt F) → (⟨S16384x10x8x80, .i1⟩ : BufTy).Contents (Elt F)),
    nullary main_c (constantI S_ 1 0#1),
    binary main_v6 main_c main_v7 ((fun x v => Host.reduce IntOp.ori x v reducesTo_S16384x10x8x80_S16384x10x80_d2 h_S_) : (⟨S16384x10x8x80, .i1⟩ : BufTy).Contents (Elt F) → (⟨S_, .i1⟩ : BufTy).Contents (Elt F) → (⟨S16384x10x80, .i1⟩ : BufTy).Contents (Elt F)) ]

/-- Operations 10–19: the clamp of the integer edges, flattened and broadcast over the rings. -/
abbrev seg2 : List (HloOp τ sig (Elt F)) :=
  [ nullary main_c_0 (constantI S_ 32 0#32),
    nullary main_c_1 (constantI S_ 32 79#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S16384x80x4, .i32⟩) main_call0_v1) (broadcastInDim S16384x80x4 ![] bcast_S_S16384x80x4),
    TRef.binary (TRef.of (T := ⟨S16384x80x4, .i32⟩) main_call0_v1) (TRef.of (T := ⟨S16384x80x4, .i32⟩) main_v0) (TRef.of (T := ⟨S16384x80x4, .i32⟩) main_call0_v2) maxsi,
    TRef.unary (TRef.of (T := ⟨S_, .i32⟩) main_c_1) (TRef.of (T := ⟨S_, .i32⟩) main_call0_v3) id,
    TRef.unary (TRef.of (T := ⟨S_, .i32⟩) main_call0_v3) (TRef.of (T := ⟨S16384x80x4, .i32⟩) main_call0_v4) (broadcastInDim S16384x80x4 ![] bcast_S_S16384x80x4),
    TRef.binary (TRef.of (T := ⟨S16384x80x4, .i32⟩) main_call0_v4) (TRef.of (T := ⟨S16384x80x4, .i32⟩) main_call0_v2) (TRef.of (T := ⟨S16384x80x4, .i32⟩) main_v8) minsi,
    reshape main_v8 main_v9 rfl shapeCasts_S16384x80x4_S16384x1x320,
    unary main_v9 main_v10 (broadcastInDim S16384x10x320 ![0, 1, 2] bcast_S16384x1x320_S16384x10x320_0_1_2 : (⟨S16384x1x320, .i32⟩ : BufTy).Contents (Elt F) → (⟨S16384x10x320, .i32⟩ : BufTy).Contents (Elt F)) ]

/-- Operations 20–27: the gather's start indices — the clamped ids with the normalisation `k < 0 ↦ k + 80`. -/
abbrev seg3a : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16384x10x320, .i32⟩) main_call1_v0) (broadcastInDim S16384x10x320 ![] bcast_S_S16384x10x320),
    TRef.binary (TRef.of (T := ⟨S16384x10x320, .i32⟩) main_v10) (TRef.of (T := ⟨S16384x10x320, .i32⟩) main_call1_v0) (TRef.of (T := ⟨S16384x10x320, .i1⟩) main_call1_v1) (cmpi .slt),
    TRef.nullary (TRef.of (T := ⟨S_, .i32⟩) main_call1_c_0) (constantI S_ 32 80#32),
    TRef.unary (TRef.of (T := ⟨S_, .i32⟩) main_call1_c_0) (TRef.of (T := ⟨S16384x10x320, .i32⟩) main_call1_v2) (broadcastInDim S16384x10x320 ![] bcast_S_S16384x10x320),
    TRef.binary (TRef.of (T := ⟨S16384x10x320, .i32⟩) main_v10) (TRef.of (T := ⟨S16384x10x320, .i32⟩) main_call1_v2) (TRef.of (T := ⟨S16384x10x320, .i32⟩) main_call1_v3) addi,
    TRef.ternary (TRef.of (T := ⟨S16384x10x320, .i1⟩) main_call1_v1) (TRef.of (T := ⟨S16384x10x320, .i32⟩) main_call1_v3) (TRef.of (T := ⟨S16384x10x320, .i32⟩) main_v10) (TRef.of (T := ⟨S16384x10x320, .i32⟩) main_call1_v4) select,
    TRef.reshape (TRef.of (T := ⟨S16384x10x320, .i32⟩) main_call1_v4) (TRef.of (T := ⟨S16384x10x320x1, .i32⟩) main_call1_v5) rfl shapeCasts_S16384x10x320_S16384x10x320x1 ]

/-- Operations 28–37: the gather's in-range mask, an AND over the (one) component of the start index. -/
abbrev seg3b : List (HloOp τ sig (Elt F)) :=
  [ TRef.nullary (TRef.of (T := ⟨S1, .i32⟩) main_call1_c_1) (constantI S1 32 79#32),
    TRef.nullary (TRef.of (T := ⟨S_, .i32⟩) main_call1_c_2) (constantI S_ 32 0#32),
    TRef.unary (TRef.of (T := ⟨S_, .i32⟩) main_call1_c_2) (TRef.of (T := ⟨S16384x10x320x1, .i32⟩) main_call1_v6) (broadcastInDim S16384x10x320x1 ![] bcast_S_S16384x10x320x1),
    TRef.binary (TRef.of (T := ⟨S16384x10x320x1, .i32⟩) main_call1_v5) (TRef.of (T := ⟨S16384x10x320x1, .i32⟩) main_call1_v6) (TRef.of (T := ⟨S16384x10x320x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16384x10x320x1, .i32⟩) main_call1_v9) (broadcastInDim S16384x10x320x1 ![0, 1, 2, 3] bcast_S1x1x1x1_S16384x10x320x1_0_1_2_3),
    TRef.binary (TRef.of (T := ⟨S16384x10x320x1, .i32⟩) main_call1_v5) (TRef.of (T := ⟨S16384x10x320x1, .i32⟩) main_call1_v9) (TRef.of (T := ⟨S16384x10x320x1, .i1⟩) main_call1_v10) (cmpi .sle),
    TRef.binary (TRef.of (T := ⟨S16384x10x320x1, .i1⟩) main_call1_v7) (TRef.of (T := ⟨S16384x10x320x1, .i1⟩) main_call1_v10) (TRef.of (T := ⟨S16384x10x320x1, .i1⟩) main_call1_v11) andi,
    TRef.nullary (TRef.of (T := ⟨S_, .i1⟩) main_call1_c_3) (constantI S_ 1 1#1),
    TRef.binary (TRef.of (T := ⟨S16384x10x320x1, .i1⟩) main_call1_v11) (TRef.of (T := ⟨S_, .i1⟩) main_call1_c_3) (TRef.of (T := ⟨S16384x10x320, .i1⟩) main_call1_v12) (fun x v => Host.reduce IntOp.andi x v reducesTo_S16384x10x320x1_S16384x10x320_d3 h_S_) ]

/-- Operations 38–41: the gather of the membership table, and the select on the mask. -/
abbrev seg3c : List (HloOp τ sig (Elt F)) :=
  [ TRef.binary (TRef.of (T := ⟨S16384x10x80, .i1⟩) main_v7) (TRef.of (T := ⟨S16384x10x320x1, .i32⟩) main_call1_v5) (TRef.of (T := ⟨S16384x10x320, .i1⟩) main_call1_v13) (fun x i => Host.gather gather_S16384x10x80_S16384x10x320x1_S16384x10x320_n_2_01_01_2_3_111 x i),
    TRef.nullary (TRef.of (T := ⟨S_, .i1⟩) main_call1_c_4) (constantI S_ 1 1#1),
    TRef.unary (TRef.of (T := ⟨S_, .i1⟩) main_call1_c_4) (TRef.of (T := ⟨S16384x10x320, .i1⟩) main_call1_v14) (broadcastInDim S16384x10x320 ![] bcast_S_S16384x10x320),
    TRef.ternary (TRef.of (T := ⟨S16384x10x320, .i1⟩) main_call1_v12) (TRef.of (T := ⟨S16384x10x320, .i1⟩) main_call1_v13) (TRef.of (T := ⟨S16384x10x320, .i1⟩) main_call1_v14) (TRef.of (T := ⟨S16384x10x320, .i1⟩) main_v11) select ]

/-- Operations 42–53: the AND with the atom's own membership, the OR over the rings, the mask, the conversion. -/
abbrev seg4 : List (HloOp τ sig (Elt F)) :=
  [ reshape main_v11 main_v12 rfl shapeCasts_S16384x10x320_S16384x10x80x4,
    unary main_v7 main_v13 (broadcastInDim S16384x10x80x1 ![0, 1, 2] bcast_S16384x10x80_S16384x10x80x1_0_1_2 : (⟨S16384x10x80, .i1⟩ : BufTy).Contents (Elt F) → (⟨S16384x10x80x1, .i1⟩ : BufTy).Contents (Elt F)),
    unary main_v13 main_v14 (broadcastInDim S16384x10x80x4 ![0, 1, 2, 3] bcast_S16384x10x80x1_S16384x10x80x4_0_1_2_3 : (⟨S16384x10x80x1, .i1⟩ : BufTy).Contents (Elt F) → (⟨S16384x10x80x4, .i1⟩ : BufTy).Contents (Elt F)),
    binary main_v14 main_v12 main_v15 (andi : (⟨S16384x10x80x4, .i1⟩ : BufTy).Contents (Elt F) → (⟨S16384x10x80x4, .i1⟩ : BufTy).Contents (Elt F) → (⟨S16384x10x80x4, .i1⟩ : BufTy).Contents (Elt F)),
    nullary main_c_2 (constantI S_ 1 0#1),
    binary main_v15 main_c_2 main_v16 ((fun x v => Host.reduce IntOp.ori x v reducesTo_S16384x10x80x4_S16384x80x4_d1 h_S_) : (⟨S16384x10x80x4, .i1⟩ : BufTy).Contents (Elt F) → (⟨S_, .i1⟩ : BufTy).Contents (Elt F) → (⟨S16384x80x4, .i1⟩ : BufTy).Contents (Elt F)),
    nullary main_c_3 (constantI S_ 32 4294967295#32),
    unary main_c_3 main_v17 (broadcastInDim S16384x80x4 ![] bcast_S_S16384x80x4 : (⟨S_, .i32⟩ : BufTy).Contents (Elt F) → (⟨S16384x80x4, .i32⟩ : BufTy).Contents (Elt F)),
    binary main_v0 main_v17 main_v18 (cmpi .ne : (⟨S16384x80x4, .i32⟩ : BufTy).Contents (Elt F) → (⟨S16384x80x4, .i32⟩ : BufTy).Contents (Elt F) → (⟨S16384x80x4, .i1⟩ : BufTy).Contents (Elt F)),
    binary main_v16 main_v18 main_v19 (andi : (⟨S16384x80x4, .i1⟩ : BufTy).Contents (Elt F) → (⟨S16384x80x4, .i1⟩ : BufTy).Contents (Elt F) → (⟨S16384x80x4, .i1⟩ : BufTy).Contents (Elt F)),
    unary main_v19 main_v20 (uitofp .f32 : (⟨S16384x80x4, .i1⟩ : BufTy).Contents (Elt F) → (⟨S16384x80x4, .f32⟩ : BufTy).Contents (Elt F)),
    reshape main_v20 main_v21 rfl shapeCasts_S16384x80x4_S16384x80x4x1 ]

theorem ops_split : (ops : List (HloOp τ sig (Elt F))) = seg1 ++ (seg2 ++ (seg3a ++ (seg3b ++ (seg3c ++ seg4)))) := rfl

variable (W : Valuation τ sig (Elt F))
variable (x0 : (⟨S16384x80x4, .f32⟩ : BufTy).Contents (Elt F)) (x1 : (⟨S16384x10x8, .i32⟩ : BufTy).Contents (Elt F))

theorem seg1_v0 (h0 : W (Proc.devRef .tc main_arg0) = x0) :
    after seg1 W (Proc.devRef .tc main_v0) = val_main_v0 (F := F) x0 := by
  after_results_simp
  rw [h0]
  rfl

theorem seg1_v7 (h1 : W (Proc.devRef .tc main_arg1) = x1) :
    after seg1 W (Proc.devRef .tc main_v7) = val_main_v7 (F := F) x1 := by
  after_results_simp
  rw [h1]
  rfl

theorem seg2_v10 (h0 : W (Proc.devRef .tc main_v0) = val_main_v0 (F := F) x0) :
    after seg2 W (Proc.devRef .tc main_v10) = val_main_v10 (F := F) x0 := by
  after_results_simp
  simp only [cast_eq]
  rw [h0]
  rfl

theorem seg2_keep_v0 : after seg2 W (Proc.devRef .tc main_v0) = W (Proc.devRef .tc main_v0) := by
  after_results_simp

theorem seg2_keep_v7 : after seg2 W (Proc.devRef .tc main_v7) = W (Proc.devRef .tc main_v7) := by
  after_results_simp

theorem seg3a_v5 (h10 : W (Proc.devRef .tc main_v10) = val_main_v10 (F := F) x0) :
    after seg3a W (Proc.devRef .tc main_call1_v5) = val_main_call1_v5 (F := F) x0 := by
  after_results_simp
  simp only [cast_eq]
  rw [h10]
  rfl

theorem seg3a_keep_v0 : after seg3a W (Proc.devRef .tc main_v0) = W (Proc.devRef .tc main_v0) := by
  after_results_simp

theorem seg3a_keep_v7 : after seg3a W (Proc.devRef .tc main_v7) = W (Proc.devRef .tc main_v7) := by
  after_results_simp

theorem seg3b_v12 (h5 : W (Proc.devRef .tc main_call1_v5) = val_main_call1_v5 (F := F) x0) :
    after seg3b W (Proc.devRef .tc main_call1_v12) = val_main_call1_v12 (F := F) x0 := by
  after_results_simp
  simp only [cast_eq]
  rw [h5]
  rfl

theorem seg3b_keep_v0 : after seg3b W (Proc.devRef .tc main_v0) = W (Proc.devRef .tc main_v0) := by
  after_results_simp

theorem seg3b_keep_v7 : after seg3b W (Proc.devRef .tc main_v7) = W (Proc.devRef .tc main_v7) := by
  after_results_simp

theorem seg3b_keep_v5 : after seg3b W (Proc.devRef .tc main_call1_v5) = W (Proc.devRef .tc main_call1_v5) := by
  after_results_simp

theorem seg3c_v11 (h12 : W (Proc.devRef .tc main_call1_v12) = val_main_call1_v12 (F := F) x0)
    (h5 : W (Proc.devRef .tc main_call1_v5) = val_main_call1_v5 (F := F) x0)
    (h7 : W (Proc.devRef .tc main_v7) = val_main_v7 (F := F) x1) :
    after seg3c W (Proc.devRef .tc main_v11) = val_main_v11 (F := F) x0 x1 := by
  after_results_simp
  simp only [cast_eq]
  rw [h12, h5, h7]
  rfl

theorem seg3c_keep_v0 : after seg3c W (Proc.devRef .tc main_v0) = W (Proc.devRef .tc main_v0) := by
  after_results_simp

theorem seg3c_keep_v7 : after seg3c W (Proc.devRef .tc main_v7) = W (Proc.devRef .tc main_v7) := by
  after_results_simp

theorem seg4_v21 (h11 : W (Proc.devRef .tc main_v11) = val_main_v11 (F := F) x0 x1)
    (h7 : W (Proc.devRef .tc main_v7) = val_main_v7 (F := F) x1)
    (h0 : W (Proc.devRef .tc main_v0) = val_main_v0 (F := F) x0) :
    after seg4 W (Proc.devRef .tc main_v21) = val_main_v21 (F := F) x0 x1 := by
  after_results_simp
  rw [h11, h7, h0]
  rfl

/-- THE RESULT BUFFER after all 53 operations is the last stage of the two argument buffers. -/
theorem result_after (h0 : W (Proc.devRef .tc main_arg0) = x0) (h1 : W (Proc.devRef .tc main_arg1) = x1) :
    after ops W (Proc.devRef .tc main_v21) = val_main_v21 (F := F) x0 x1 := by
  rw [ops_split, after_append, after_append, after_append, after_append, after_append]
  have a0 := seg1_v0 W x0 h0
  have a7 := seg1_v7 W x1 h1
  generalize after seg1 W = W1 at a0 a7 ⊢
  have b0 := (seg2_keep_v0 W1).trans a0
  have b7 := (seg2_keep_v7 W1).trans a7
  have b10 := seg2_v10 W1 x0 a0
  generalize after seg2 W1 = W2 at b0 b7 b10 ⊢
  have c0 := (seg3a_keep_v0 W2).trans b0
  have c7 := (seg3a_keep_v7 W2).trans b7
  have c5 := seg3a_v5 W2 x0 b10
  generalize after seg3a W2 = W3 at c0 c7 c5 ⊢
  have d0 := (seg3b_keep_v0 W3).trans c0
  have d7 := (seg3b_keep_v7 W3).trans c7
  have d5 := (seg3b_keep_v5 W3).trans c5
  have d12 := seg3b_v12 W3 x0 c5
  generalize after seg3b W3 = W4 at d0 d7 d5 d12 ⊢
  have e0 := (seg3c_keep_v0 W4).trans d0
  have e7 := (seg3c_keep_v7 W4).trans d7
  have e11 := seg3c_v11 W4 x0 x1 d12 d5 d7
  generalize after seg3c W4 = W5 at e0 e7 e11 ⊢
  exact seg4_v21 W5 x0 x1 e11 e7 e0

/-- THE REFERENCE'S RUN, READ: it ends with its result at the last stage of its two arguments, which it leaves
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = val_main_v21 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v21).trans (result_after (launchContents m c) _ _ rfl rfl),
       (h c main_arg0).trans (by after_results_simp <;> rfl),
       (h c main_arg1).trans (by after_results_simp <;> rfl)⟩)
    (run_after m ρ)

end Cert.RingBond.RefRun

end
-- ==== Proof.RefValue.lean ====
/-
  The reference's result, entry by entry.

  The reference builds the membership table `mem (b, r, a)` — atom `a` is among the eight members of ring `r` of molecule
  `b` — by an OR over the members; clamps the integer edges into `[0, 79]`; reads the table at the clamped neighbour id
  (a gather along the atom axis, behind an index normalisation `k < 0 ↦ k + 80` and an in-range mask that are both idle
  on ids already in `[0, 79]`); ANDs with the atom's own membership; ORs over the ten rings; ANDs with "the edge is
  not `-1`"; and converts the bit to `0.0` or `1.0`. Entry `(b, a, d, 0)` is therefore `bondEntry` of molecule `b`'s
  rings, atom `a` and the edge value at `(b, a, d)`: the reference's result is `bondArray` of its two arguments.
-/
import proofs.«107175_j64682207477991_2_alg».proof.Proof.RefReadPatched
import proofs.«107175_j64682207477991_2_alg».proof.Proof.BondSpec
import Idealize.ShloMosaic.PureOps.Reduce
import Idealize.ShloMosaic.Lib.Pipeline.Value
import Idealize.ShloMosaic.Lib.Affine

set_option maxRecDepth 16384

noncomputable section

namespace Cert.RingBond

open Cert.ReferenceIdeal Cert.ReferenceIdeal.Gen Cert.ReferenceIdeal.ReadP Idealize.ShloMosaic Idealize.ShloMosaic.ValueIdx

/-- An OR-fold of one-bit words over a finite set is `1` iff it started at `1` or met a `1`. -/
theorem fold_ori_eq_one_iff {n : ℕ} (S : Finset (Fin n)) (g : Fin n → BitVec 1) (init : BitVec 1) :
    S.fold IntOp.ori init g = 1#1 ↔ init = 1#1 ∨ ∃ k ∈ S, g k = 1#1 := by
  induction S using Finset.induction_on with
  | empty => simp
  | insert a S ha ih =>
    rw [Finset.fold_insert ha, ori_eq_one_iff, ih, Finset.exists_mem_insert]
    tauto

/-- An AND-fold of one-bit words over a finite set is `1` iff it started at `1` and met only `1`s. -/
theorem fold_andi_eq_one_iff {n : ℕ} (S : Finset (Fin n)) (g : Fin n → BitVec 1) (init : BitVec 1) :
    S.fold IntOp.andi init g = 1#1 ↔ init = 1#1 ∧ ∀ k ∈ S, g k = 1#1 := by
  induction S using Finset.induction_on with
  | empty => simp
  | insert a S ha ih =>
    rw [Finset.fold_insert ha, andi_eq_one_iff, ih, Finset.forall_mem_insert]
    tauto

variable {α : Type}

local notation "gd" => gather_S16384x10x80_S16384x10x320x1_S16384x10x320_n_2_01_01_2_3_111

/-- The gather of the reference read at `(b, r, l)`: the operand's entry `(b, r, k)` with `k` the start index at
    `(b, r, l, 0)`, read signed and clamped into `[0, 79]`. -/
theorem gather_apply (x : S16384x10x80.Idx → α) (idx : IVec S16384x10x320x1 32) (b : Fin 16384) (r : Fin 10) (l : Fin 320)
    (y : BitVec 32) (hy : idx (ix4 b r l (0 : Fin 1)) = y) (k : Fin 80) (hk : k.val = min y.toInt.toNat 79) :
    Host.gather gd x idx (ix3 b r l) = x (ix3 b r k) := by
  unfold Host.gather
  have hsi : ∀ c : Fin (gd).startIndexMap.length, (gd).siIdx (ix3 b r l) c = ix4 b r l (0 : Fin 1) := by
    intro c
    funext b'
    apply Fin.ext
    match b' with
    | ⟨0, _⟩ => rfl
    | ⟨1, _⟩ => rfl
    | ⟨2, _⟩ => rfl
    | ⟨3, _⟩ =>
      have hc := c.isLt
      have hlen : (gd).startIndexMap.length = 1 := rfl
      show c.val = 0
      omega
  refine congrArg x (funext fun a => Fin.ext ?_)
  match a with
  | ⟨0, _⟩ =>
    show GatherDims.start gd (ix3 b r l) idx (0 : Fin 3) + GatherDims.batchCoord gd (ix3 b r l) (0 : Fin 3) + GatherDims.offCoord gd (ix3 b r l) (0 : Fin 3) = b.val
    rw [GatherDims.start_batching _ _ _ _ (by decide), GatherDims.offCoord_eq_zero _ _ _ (by rw [GatherDims.mem_sKept]; decide)]
    unfold GatherDims.batchCoord
    rw [dif_pos (by decide)]
    simp only [Nat.zero_add, Nat.add_zero]
    rfl
  | ⟨1, _⟩ =>
    show GatherDims.start gd (ix3 b r l) idx (1 : Fin 3) + GatherDims.batchCoord gd (ix3 b r l) (1 : Fin 3) + GatherDims.offCoord gd (ix3 b r l) (1 : Fin 3) = r.val
    rw [GatherDims.start_batching _ _ _ _ (by decide), GatherDims.offCoord_eq_zero _ _ _ (by rw [GatherDims.mem_sKept]; decide)]
    unfold GatherDims.batchCoord
    rw [dif_pos (by decide)]
    simp only [Nat.zero_add, Nat.add_zero]
    rfl
  | ⟨2, _⟩ =>
    show GatherDims.start gd (ix3 b r l) idx (2 : Fin 3) + GatherDims.batchCoord gd (ix3 b r l) (2 : Fin 3) + GatherDims.offCoord gd (ix3 b r l) (2 : Fin 3) = k.val
    rw [GatherDims.batchCoord_eq_zero _ _ _ (by decide), GatherDims.offCoord_eq_zero _ _ _ (by rw [GatherDims.mem_sKept]; decide)]
    unfold GatherDims.start
    rw [dif_pos (by decide), hsi, hy, hk]
    rfl

/-! ## The clamp -/

/-- A clamped id is in `[0, 79]`, read signed. -/
theorem clip_range (e : BitVec 32) : 0 ≤ (clip e).toInt ∧ (clip e).toInt ≤ 79 := by
  have h79 : (79#32 : BitVec 32).toInt = 79 := by decide
  have h0 : (0#32 : BitVec 32).toInt = 0 := by decide
  unfold clip IntOp.minsi IntOp.maxsi
  simp only [BitVec.slt, decide_eq_true_eq]
  split_ifs <;> omega

/-- A word in `[0, 79]` read signed is the word of its value. -/
theorem ofNat_toNat_of_range (y : BitVec 32) (h0 : 0 ≤ y.toInt) : BitVec.ofNat 32 y.toInt.toNat = y := by
  have hy := y.isLt
  have hc := BitVec.toInt_eq_toNat_cond y
  apply BitVec.eq_of_toNat_eq
  rw [BitVec.toNat_ofNat]
  by_cases h2 : 2 * y.toNat < 2 ^ 32
  · have e : y.toInt = (y.toNat : ℤ) := by rw [hc, if_pos h2]
    rw [e, Int.toNat_natCast, Nat.mod_eq_of_lt hy]
  · have e : y.toInt = (y.toNat : ℤ) - 2 ^ 32 := by rw [hc, if_neg h2]; push_cast; rfl
    omega

variable (x0 : S16384x80x4.Idx → EReal) (x1 : S16384x10x8.Idx → BitVec 32)

/-! ## The membership table -/

theorem red7 : S16384x10x8x80.Reduces [(2 : Fin 4)] S16384x10x80 := by decide

/-- Ring `r` of molecule `b` lists atom `a` iff the table says so. -/
theorem mem_apply (b : Fin 16384) (r : Fin 10) (a : Fin 80) :
    val_main_v7 (F := Ideal) x1 (ix3 b r a) = 1#1 ↔ ∃ s : Fin 8, x1 (ix3 b r s) = BitVec.ofNat 32 a.val := by
  unfold val_main_v7
  rw [Host.reduce_eq_fold_single IntOp.ori _ _ reducesTo_S16384x10x8x80_S16384x10x80_d2 red7 h_S_, fold_ori_eq_one_iff]
  simp only [Finset.mem_univ, true_and, Function.comp_apply, val_main_c_apply, zero_ne_one_bit, false_or]
  refine exists_congr fun k => ?_
  rw [val_main_v6_apply, val_main_v4_apply, val_main_v1_apply, val_main_v5_apply, val_main_v3_apply, val_main_v2_apply,
    IntOp.cmpi_eq]
  have e1 : idx_main_v1 (idx_main_v4 (red7.lift (ix3 b r a) k)) = ix3 b r k := by
    funext c; apply Fin.ext
    match c with
    | ⟨0, _⟩ => rfl
    | ⟨1, _⟩ => rfl
    | ⟨2, _⟩ => rfl
  have e2 : ((idx_main_v3 (idx_main_v5 (red7.lift (ix3 b r a) k))) 0).val = a.val := rfl
  rw [e1, e2]
  exact Iff.rfl

/-! ## The clamped neighbour ids -/

/-- The clamped ids, flattened and broadcast over the rings: at `(b, r, l)` with `l = 4·a + d`, the clamp of the integer
    edge at `(b, a, d)`. -/
theorem v10_apply (b : Fin 16384) (r : Fin 10) (a : Fin 80) (d : Fin 4) (l : Fin 320) (hl : l.val = a.val * 4 + d.val) :
    val_main_v10 (F := Ideal) x0 (ix3 b r l) = clip (Ideal.fptosi 32 (x0 (ix3 b a d))) := by
  rw [val_main_v10_apply, val_main_v9_apply, val_main_v8_apply, val_main_call0_v4_apply, val_main_call0_v3_apply,
    val_main_c_1_apply, val_main_call0_v2_apply, val_main_call0_v1_apply, val_main_call0_v0_apply, val_main_c_0_apply,
    val_main_v0_apply]
  have ha : a.val < 80 := a.isLt
  have hd : d.val < 4 := d.isLt
  have e : idx_main_v9 (idx_main_v10 (ix3 b r l)) = ix3 b a d := by
    funext c; apply Fin.ext
    match c with
    | ⟨0, _⟩ => show ((b.val * 1 + 0) * 320 + l.val) / 320 = b.val; omega
    | ⟨1, _⟩ => show ((b.val * 1 + 0) * 320 + l.val) / 4 % 80 = a.val; omega
    | ⟨2, _⟩ => show ((b.val * 1 + 0) * 320 + l.val) % 4 = d.val; omega
  rw [e]
  rfl

/-- The gather's start index at `(b, r, l, u)` is that clamped id: the normalisation `k < 0 ↦ k + 80` is idle on it. -/
theorem v5_apply (b : Fin 16384) (r : Fin 10) (a : Fin 80) (d : Fin 4) (l : Fin 320) (hl : l.val = a.val * 4 + d.val) (u : Fin 1) :
    val_main_call1_v5 (F := Ideal) x0 (ix4 b r l u) = clip (Ideal.fptosi 32 (x0 (ix3 b a d))) := by
  have hu : u.val = 0 := by omega
  have hr : r.val < 10 := r.isLt
  have hl' : l.val < 320 := l.isLt
  have e : idx_main_call1_v5 (ix4 b r l u) = ix3 b r l := by
    funext c; apply Fin.ext
    match c with
    | ⟨0, _⟩ => show (((b.val * 10 + r.val) * 320 + l.val) * 1 + u.val) / 3200 = b.val; omega
    | ⟨1, _⟩ => show (((b.val * 10 + r.val) * 320 + l.val) * 1 + u.val) / 320 % 10 = r.val; omega
    | ⟨2, _⟩ => show (((b.val * 10 + r.val) * 320 + l.val) * 1 + u.val) % 320 = l.val; omega
  rw [val_main_call1_v5_apply, e, val_main_call1_v4_apply, val_main_call1_v1_apply, val_main_call1_v0_apply,
    val_main_call1_c_apply, v10_apply x0 b r a d l hl]
  have hneg : IntOp.cmpi .slt (clip (Ideal.fptosi 32 (x0 (ix3 b a d)))) 0#32 = 0#1 := by
    apply eq_zero_of_ne_one
    rw [IntOp.cmpi_slt]
    have h0 : (0#32 : BitVec 32).toInt = 0 := by decide
    have := (clip_range (Ideal.fptosi 32 (x0 (ix3 b a d)))).1
    omega
  rw [hneg, select_zero]

theorem red12 : S16384x10x320x1.Reduces [(3 : Fin 4)] S16384x10x320 := by decide

/-- The gather's in-range mask is set on a clamped id. -/
theorem v12c_apply (b : Fin 16384) (r : Fin 10) (a : Fin 80) (d : Fin 4) (l : Fin 320) (hl : l.val = a.val * 4 + d.val) :
    val_main_call1_v12 (F := Ideal) x0 (ix3 b r l) = 1#1 := by
  unfold val_main_call1_v12
  rw [Host.reduce_eq_fold_single IntOp.andi _ _ reducesTo_S16384x10x320x1_S16384x10x320_d3 red12 h_S_, fold_andi_eq_one_iff]
  refine ⟨rfl, ?_⟩
  intro (k : Fin 1) _
  have e : red12.lift (ix3 b r l) k = ix4 b r l k := by
    funext c; apply Fin.ext
    match c with
    | ⟨0, _⟩ => rfl
    | ⟨1, _⟩ => rfl
    | ⟨2, _⟩ => rfl
    | ⟨3, _⟩ => rfl
  have h79 : (79#32 : BitVec 32).toInt = 79 := by decide
  have h0 : (0#32 : BitVec 32).toInt = 0 := by decide
  have hrange := clip_range (Ideal.fptosi 32 (x0 (ix3 b a d)))
  show val_main_call1_v11 (F := Ideal) x0 (red12.lift (ix3 b r l) k) = 1#1
  rw [e, val_main_call1_v11_apply, andi_eq_one_iff, val_main_call1_v7_apply, val_main_call1_v10_apply,
    v5_apply x0 b r a d l hl k, val_main_call1_v6_apply, val_main_call1_c_2_apply, val_main_call1_v9_apply,
    val_main_call1_v8_apply, val_main_call1_c_1_apply, IntOp.cmpi_sge, IntOp.cmpi_sle]
  omega

/-- The gathered neighbour membership at `(b, r, l)`, `l = 4·a + d`: ring `r` lists the clamped neighbour id. -/
theorem v11_apply (b : Fin 16384) (r : Fin 10) (a : Fin 80) (d : Fin 4) (l : Fin 320) (hl : l.val = a.val * 4 + d.val) :
    val_main_v11 (F := Ideal) x0 x1 (ix3 b r l) = 1#1
      ↔ ∃ s : Fin 8, x1 (ix3 b r s) = clip (Ideal.fptosi 32 (x0 (ix3 b a d))) := by
  have hrange := clip_range (Ideal.fptosi 32 (x0 (ix3 b a d)))
  rw [val_main_v11_apply, v12c_apply x0 b r a d l hl, select_one]
  unfold val_main_call1_v13
  have hlt : (clip (Ideal.fptosi 32 (x0 (ix3 b a d)))).toInt.toNat < 80 := by omega
  rw [gather_apply _ _ b r l _ (v5_apply x0 b r a d l hl (0 : Fin 1)) ⟨_, hlt⟩ (by
      show (clip (Ideal.fptosi 32 (x0 (ix3 b a d)))).toInt.toNat = min (clip (Ideal.fptosi 32 (x0 (ix3 b a d)))).toInt.toNat 79
      omega),
    mem_apply x1 b r ⟨_, hlt⟩]
  show (∃ s : Fin 8, x1 (ix3 b r s) = BitVec.ofNat 32 (clip (Ideal.fptosi 32 (x0 (ix3 b a d)))).toInt.toNat) ↔ _
  rw [ofNat_toNat_of_range _ hrange.1]

theorem red16 : S16384x10x80x4.Reduces [(1 : Fin 4)] S16384x80x4 := by decide

/-- THE REFERENCE AT AN ENTRY. -/
theorem ref_entry (i : S16384x80x4x1.Idx) :
    val_main_v21 (F := Ideal) x0 x1 i = bondArray x0 x1 i := by
  obtain ⟨b, a, d, u, rfl⟩ : ∃ (b : Fin 16384) (a : Fin 80) (d : Fin 4) (u : Fin 1), i = ix4 b a d u :=
    ⟨i 0, i 1, i 2, i 3, eq_ix4 i⟩
  have ha : a.val < 80 := a.isLt
  have hd : d.val < 4 := d.isLt
  have hu : u.val = 0 := by omega
  have e21 : idx_main_v21 (ix4 b a d u) = ix3 b a d := by
    funext c; apply Fin.ext
    match c with
    | ⟨0, _⟩ => show (((b.val * 80 + a.val) * 4 + d.val) * 1 + u.val) / 320 = b.val; omega
    | ⟨1, _⟩ => show (((b.val * 80 + a.val) * 4 + d.val) * 1 + u.val) / 4 % 80 = a.val; omega
    | ⟨2, _⟩ => show (((b.val * 80 + a.val) * 4 + d.val) * 1 + u.val) % 4 = d.val; omega
  rw [val_main_v21_apply, e21, val_main_v20_apply, uitofp_bit]
  show _ = bondEntry (fun r s => x1 (ix3 b r s)) a.val (x0 (ix3 b a d))
  unfold bondEntry
  refine congrArg (fun w : BitVec 1 => (((w.toNat : ℕ) : ℝ) : EReal)) (eq_bitOf ?_)
  rw [val_main_v19_apply, andi_eq_one_iff, val_main_v18_apply, val_main_v17_apply, val_main_c_3_apply, val_main_v0_apply,
    IntOp.cmpi_ne]
  refine and_congr ?_ Iff.rfl
  unfold val_main_v16
  rw [Host.reduce_eq_fold_single IntOp.ori _ _ reducesTo_S16384x10x80x4_S16384x80x4_d1 red16 h_S_, fold_ori_eq_one_iff]
  simp only [Finset.mem_univ, true_and, Function.comp_apply, val_main_c_2_apply, zero_ne_one_bit, false_or]
  unfold Bonded
  show (∃ r : Fin 10, val_main_v15 (F := Ideal) x0 x1 (red16.lift (ix3 b a d) r) = 1#1) ↔ _
  refine exists_congr fun r => ?_
  have e16 : red16.lift (ix3 b a d) r = ix4 b r a d := by
    funext c; apply Fin.ext
    match c with
    | ⟨0, _⟩ => rfl
    | ⟨1, _⟩ => rfl
    | ⟨2, _⟩ => rfl
    | ⟨3, _⟩ => rfl
  have e14 : idx_main_v13 (idx_main_v14 (ix4 b r a d)) = ix3 b r a := by
    funext c; apply Fin.ext
    match c with
    | ⟨0, _⟩ => rfl
    | ⟨1, _⟩ => rfl
    | ⟨2, _⟩ => rfl
  have hr : r.val < 10 := r.isLt
  have e12 : idx_main_v12 (ix4 b r a d) = ix3 b r ⟨a.val * 4 + d.val, by omega⟩ := by
    funext c; apply Fin.ext
    match c with
    | ⟨0, _⟩ => show (((b.val * 10 + r.val) * 80 + a.val) * 4 + d.val) / 3200 = b.val; omega
    | ⟨1, _⟩ => show (((b.val * 10 + r.val) * 80 + a.val) * 4 + d.val) / 320 % 10 = r.val; omega
    | ⟨2, _⟩ => show (((b.val * 10 + r.val) * 80 + a.val) * 4 + d.val) % 320 = a.val * 4 + d.val; omega
  rw [e16, val_main_v15_apply, andi_eq_one_iff, val_main_v14_apply, val_main_v13_apply, e14, val_main_v12_apply, e12,
    mem_apply x1 b r a, v11_apply x0 x1 b r a d ⟨a.val * 4 + d.val, by omega⟩ rfl]

/-- THE REFERENCE'S RESULT is `bondArray` of its arguments. -/
theorem ref_value : val_main_v21 (F := Ideal) x0 x1 = bondArray x0 x1 := funext (ref_entry x0 x1)

end Cert.RingBond

end
-- ==== Proof.lean ====
/-
  The ring-bond kernel against its jnp reference: the frames, the (empty) idealization ledger, and the equality of the
  two results over the extended reals.

  Both programs turn the float edges into integers `e`, and for entry `(b, a, d)` decide the same bit: some ring of
  molecule `b` lists both atom `a` and the neighbour id `e (b, a, d)` clamped into `[0, 79]`, and `e (b, a, d) ≠ -1`.
  The reference builds the ring-by-atom membership table and gathers it at the clamped ids; the kernel, on arrays
  flattened to `[16384, 320]` and `[16384, 80]`, compares each of the eighty member columns with the lane's atom id
  `l / 4` and with the lane's clamped id and ORs and ANDs the comparisons ring by ring — after converting the
  integers to reals, which at the ideal instance is exact, so the comparisons are the integers'. Both results are
  the bit's number, so both are `bondArray` of the arguments (Proof/KernelValue.lean for the kernel's run,
  Proof/RefRun.lean and Proof/RefValue.lean for the reference's). No precondition is used: the truncation of an
  infinite edge is the same word in both programs. The three frames are the generated frame certificates and the
  reference's run with its result dropped; the idealization rewrote nothing, so `preserves` is `True`.
-/
import proofs.«107175_j64682207477991_2_alg».proof.Defs
import proofs.«107175_j64682207477991_2_alg».proof.Proof.Gen.Kernel
import proofs.«107175_j64682207477991_2_alg».proof.Proof.Gen.Kernel.Frame
import proofs.«107175_j64682207477991_2_alg».proof.Proof.Gen.KernelIdeal
import proofs.«107175_j64682207477991_2_alg».proof.Proof.Gen.KernelIdeal.Frame
import proofs.«107175_j64682207477991_2_alg».proof.Proof.Gen.ReferenceIdeal
import proofs.«107175_j64682207477991_2_alg».proof.Proof.Gen.Pre_finite_inputs
import proofs.«107175_j64682207477991_2_alg».proof.Proof.KernelValue
import proofs.«107175_j64682207477991_2_alg».proof.Proof.RefRun
import proofs.«107175_j64682207477991_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RingBond.RefRun.run (F := Ideal) m ρ)

/-- The idealization pass rewrote no operation. -/
theorem preserves : Cert.preserves_Kernel_KernelIdeal := trivial

/-- From memories agreeing on the arguments both programs end with the result at `bondArray` of the arguments. -/
theorem algebraic : Cert.algebraic_KernelIdeal_ReferenceIdeal := by
  intro m ρ m' ρ' _ hagree
  refine ⟨fun c => Cert.RingBond.bondArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.RingBond.kernel_run m ρ, ?_⟩
  refine (θ_run Cert.ReferenceIdeal.defs _ _).mono (fun _ h c => ⟨(h c).1.trans ?_, (h c).2⟩)
    (Cert.RingBond.RefRun.run (F := Ideal) m' ρ')
  rw [(hagree c).1, (hagree c).2]
  exact Cert.RingBond.ref_value _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
